-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 112
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S_, .f32⟩
  | .hbm, ⟨25, _⟩ => ⟨S600000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000, .f32⟩
  | .hbm, ⟨51, _⟩ => ⟨S600000, .f32⟩
  | .hbm, ⟨52, _⟩ => ⟨S600000x1, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S600000x128, .f32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .f32⟩
  | .hbm, ⟨81, _⟩ => ⟨S600000x128, .f32⟩
  | .hbm, ⟨82, _⟩ => ⟨S600000x128, .f32⟩
  | .hbm, ⟨83, _⟩ => ⟨S_, .f32⟩
  | .hbm, ⟨84, _⟩ => ⟨S50000x128, .f32⟩
  | .hbm, ⟨85, _⟩ => ⟨S600000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x128, .f32⟩
  | .hbm, ⟨99, _⟩ => ⟨S600000x128, .f32⟩
  | .hbm, ⟨100, _⟩ => ⟨S600000x128, .f32⟩
  | .hbm, ⟨101, _⟩ => ⟨S_, .f32⟩
  | .hbm, ⟨102, _⟩ => ⟨S50000x128, .f32⟩
  | .hbm, ⟨103, _⟩ => ⟨S600000x1, .i32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x1, .f32⟩
  | .hbm, ⟨108, _⟩ => ⟨S1x1, .f32⟩
  | .hbm, ⟨109, _⟩ => ⟨S50000x1, .f32⟩
  | .hbm, ⟨110, _⟩ => ⟨S50000x1, .f32⟩
  | .hbm, ⟨111, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem5_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S5000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v78) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S_, .f32⟩
  | 25 => ⟨S600000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000, .f32⟩
  | 51 => ⟨S600000x1, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .i1⟩
  | 78 => ⟨S_, .f32⟩
  | 79 => ⟨S50000x128, .f32⟩
  | 80 => ⟨S50000x128, .f32⟩
  | 81 => ⟨S50000x128, .f32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000, .f32⟩
  | 102 => ⟨S600000x1, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S600000x128, .f32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S50000, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S50000x128, .f32⟩
  | 6 => ⟨S50000x128, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S600000, .f32⟩
  | 26 => ⟨S600000x1, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S600000x128, .f32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S50000x128, .f32⟩
  | 58 => ⟨S50000x1, .f32⟩
  | 59 => ⟨S1x1, .f32⟩
  | 60 => ⟨S50000x1, .f32⟩
  | 61 => ⟨S50000x1, .f32⟩
  | 62 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_21 : Ref sig .tc := ⟨.hbm, 135, rfl⟩
abbrev main_v102 : Ref sig .tc := ⟨.hbm, 136, rfl⟩
abbrev main_v103 : Ref sig .tc := ⟨.hbm, 137, rfl⟩
abbrev main_c_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_23 : Ref sig .tc := ⟨.hbm, 144, rfl⟩
abbrev main_v109 : Ref sig .tc := ⟨.hbm, 145, rfl⟩
abbrev main_v110 : Ref sig .tc := ⟨.hbm, 146, rfl⟩
abbrev main_c_24 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_25 : Ref sig .tc := ⟨.hbm, 155, rfl⟩
abbrev main_v118 : Ref sig .tc := ⟨.hbm, 156, rfl⟩
abbrev main_v119 : Ref sig .tc := ⟨.hbm, 157, rfl⟩
abbrev main_c_26 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_27 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_28 : Ref sig .tc := ⟨.hbm, 179, rfl⟩
abbrev main_v139 : Ref sig .tc := ⟨.hbm, 180, rfl⟩
abbrev main_v140 : Ref sig .tc := ⟨.hbm, 181, rfl⟩
abbrev main_cst_29 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x1_S50000x1_1_0_0_1_n_n_wf : DotDims.WF S50000x128 S128x1 S50000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel program, run from the launch to the return, with its result named. The program is six
  kernel regions among stretches of host operations. Its buffers' contents are followed from boundary to boundary:
  `W0` at the launch, a host stretch applied to the contents before it, a region's arrays at what its write-backs
  leave and every other buffer as the region found it, up to `W11` at the return. Every weakly fair execution
  terminates with every unscoped buffer at `W11`; read at the result buffer and at the ten argument buffers this
  names the result and says the arguments end as launched.
-/
import proofs.«105951_j5961414607307_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v83) = W11 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v83 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Named

end
-- ==== Proof.HostPart.lean ====
/-
  The host operations the two programs share, as functions of the arguments, over any float values. From the edge
  list `e` (two rows of 600000 node numbers, sources and targets): the source and target rows; a row with its
  negative entries shifted up by the node count (the wrap-around of a negative index); the degree of each node, a
  scatter-add of ones at the targets, plus one for the self loop; `dis`, its reciprocal square root; the self-loop
  scale `dis · dis` as a column; the edge scale `dis[source] · dis[target]` as a column; the neighbourhood sum of the
  rows of an array `H`, gathered at the sources, scaled edge by edge and scatter-added at the targets; and the final
  projection, a product with a 128 by 1 matrix, a bias added to every row, the unit axis dropped.
  The operations' dimension records and shape side conditions are parameters (`HostRecs`): each program states its
  own, and two programs that state the same ones compute the same functions.
-/
import Idealize.ShloMosaic.PureOps
import Idealize.ShloMosaic.Lib.ValueIdx

noncomputable section

namespace Cert.HostPart

open Idealize.ShloMosaic

abbrev S0 : Shape := ⟨0, ![]⟩
abbrev S1 : Shape := ⟨1, ![1]⟩
abbrev S1x1 : Shape := ⟨2, ![1, 1]⟩
abbrev S2xE : Shape := ⟨2, ![2, 600000]⟩
abbrev S1xE : Shape := ⟨2, ![1, 600000]⟩
abbrev SE : Shape := ⟨1, ![600000]⟩
abbrev SEx1 : Shape := ⟨2, ![600000, 1]⟩
abbrev SExD : Shape := ⟨2, ![600000, 128]⟩
abbrev SN : Shape := ⟨1, ![50000]⟩
abbrev SNx1 : Shape := ⟨2, ![50000, 1]⟩
abbrev SNxD : Shape := ⟨2, ![50000, 128]⟩
abbrev SDx1 : Shape := ⟨2, ![128, 1]⟩
abbrev SDxD : Shape := ⟨2, ![128, 128]⟩
abbrev SD : Shape := ⟨1, ![128]⟩

/-- The side conditions and dimension records of the shared host operations. -/
structure HostRecs where
  sl0 : S2xE.Slices ![0, 0] S1xE
  sl1 : S2xE.Slices ![1, 0] S1xE
  sc1E : S1xE.ShapeCasts SE
  b0N : S0.BroadcastsInDim SN (![] : Fin 0 → Fin SN.rank)
  b0E : S0.BroadcastsInDim SE (![] : Fin 0 → Fin SE.rank)
  bE1 : SE.BroadcastsInDim SEx1 (![0] : Fin 1 → Fin SEx1.rank)
  bE1D : SEx1.BroadcastsInDim SExD (![0, 1] : Fin 2 → Fin SExD.rank)
  b0ND : S0.BroadcastsInDim SNxD (![] : Fin 0 → Fin SNxD.rank)
  bN1 : SN.BroadcastsInDim SNx1 (![0] : Fin 1 → Fin SNx1.rank)
  b1 : S1.BroadcastsInDim S1x1 (![1] : Fin 1 → Fin S1x1.rank)
  b11N1 : S1x1.BroadcastsInDim SNx1 (![0, 1] : Fin 2 → Fin SNx1.rank)
  scN1 : SNx1.ShapeCasts SN
  sc : ScatterDims SN SEx1 SE
  ga : GatherDims SN SEx1 SE
  gaD : GatherDims SNxD SEx1 SExD
  scD : ScatterDims SNxD SEx1 SExD
  dotT : DotDims SNxD SDx1 SNx1

variable {F : FTy → Type} [FloatOps F] (R : HostRecs)

/-- The sources: row 0 of the edge list. -/
def src (e : IVec S2xE 32) : IVec SE 32 := shapeCast _ (extractStridedSlice S1xE ![0, 0] e R.sl0) R.sc1E

/-- The targets: row 1 of the edge list. -/
def tgt (e : IVec S2xE 32) : IVec SE 32 := shapeCast _ (extractStridedSlice S1xE ![1, 0] e R.sl1) R.sc1E

/-- A row of node numbers with its negative entries shifted up by 50000, as a column. -/
def wrap (v : IVec SE 32) : IVec SEx1 32 :=
  broadcastInDim SEx1 ![0] R.bE1 (select (cmpi .slt v (broadcastInDim SE ![] R.b0E (constantI S0 32 0#32)))
    (addi v (broadcastInDim SE ![] R.b0E (constantI S0 32 50000#32))) v)

/-- `(degree + 1)^(-1/2)`: ones scatter-added at the targets, one more for the self loop, the reciprocal square root. -/
def dis (e : IVec S2xE 32) : FVec F SN .f32 :=
  Host.rsqrt (addf (Host.scatterAdd R.sc (broadcastInDim SN ![] R.b0N (constant S0 .f32 0x00000000#32)) (wrap R (tgt R e))
      (broadcastInDim SE ![] R.b0E (constant S0 .f32 0x3F800000#32)))
    (broadcastInDim SN ![] R.b0N (constant S0 .f32 0x3F800000#32)))

/-- The self-loop scale `dis · dis`, as a column. -/
def selfScale (e : IVec S2xE 32) : FVec F SNx1 .f32 :=
  broadcastInDim SNx1 ![0] R.bN1 (mulf (dis (F := F) R e) (dis (F := F) R e))

/-- The edge scale `dis[source] · dis[target]`, as a column. -/
def edgeScale (e : IVec S2xE 32) : FVec F SEx1 .f32 :=
  broadcastInDim SEx1 ![0] R.bE1 (mulf (Host.gather R.ga (dis (F := F) R e) (wrap R (src R e))) (Host.gather R.ga (dis (F := F) R e) (wrap R (tgt R e))))

/-- The neighbourhood sum: the rows of `H` at the sources, scaled edge by edge, scatter-added at the targets. -/
def agg (e : IVec S2xE 32) (H : FVec F SNxD .f32) : FVec F SNxD .f32 :=
  Host.scatterAdd R.scD (broadcastInDim SNxD ![] R.b0ND (constant S0 .f32 0x00000000#32)) (broadcastInDim SEx1 ![0] R.bE1 (tgt R e))
    (mulf (Host.gather R.gaD H (wrap R (src R e))) (broadcastInDim SExD ![0, 1] R.bE1D (edgeScale (F := F) R e)))

/-- The final projection: the product with a 128 by 1 matrix, the bias added to every row, the unit axis dropped. -/
def project (H : FVec F SNxD .f32) (lw : FVec F SDx1 .f32) (lb : FVec F S1 .f32) : FVec F SN .f32 :=
  shapeCast _ (addf (Host.dotGeneral R.dotT none H lw) (broadcastInDim SNx1 ![0, 1] R.b11N1 (broadcastInDim S1x1 ![1] R.b1 lb))) R.scN1

end Cert.HostPart

end
-- ==== Proof.KRecs.lean ====
/-
  The side conditions and dimension records of the shared host operations, as this program states them.
-/
import proofs.«105951_j5961414607307_2_alg».proof.Proof.Gen.KernelIdeal
import proofs.«105951_j5961414607307_2_alg».proof.Proof.HostPart

noncomputable section

namespace Cert.KernelIdeal

open Idealize.ShloMosaic

/-- This program's records for the host operations it shares with the other program. -/
def hostRecs : Cert.HostPart.HostRecs where
  sl0 := Facts₀.slices_S2x600000_S1x600000_0_0
  sl1 := Facts₀.slices_S2x600000_S1x600000_1_0
  sc1E := Facts₀.shapeCasts_S1x600000_S600000
  b0N := Facts₀.bcast_S_S50000
  b0E := Facts₀.bcast_S_S600000
  bE1 := Facts₀.bcast_S600000_S600000x1_0
  bE1D := Facts₀.bcast_S600000x1_S600000x128_0_1
  b0ND := Facts₀.bcast_S_S50000x128
  bN1 := Facts₀.bcast_S50000_S50000x1_0
  b1 := Facts₀.bcast_S1_S1x1_1
  b11N1 := Facts₀.bcast_S1x1_S50000x1_0_1
  scN1 := Facts₀.shapeCasts_S50000x1_S50000
  sc := scatter_S50000_S600000x1_S600000_n_0_0_1
  ga := gather_S50000_S600000x1_S600000_n_0_n_n_0_1_1
  gaD := gather_S50000x128_S600000x1_S600000x128_1_0_n_n_0_1_1128
  scD := scatter_S50000x128_S600000x1_S600000x128_1_0_0_1
  dotT := dot_S50000x128_S128x1_S50000x1_1_0_0_1_n_n

end Cert.KernelIdeal

end
-- ==== Proof.Keep.lean ====
/-
  What the boundaries of the idealized kernel program keep. The first host stretch computes, from the edge list,
  the source and target rows, the self-loop scale and the edge scale; no later host operation and no region writes
  those buffers or an argument (a region that reads one of them through an input window leaves the array as it
  found it), so every later boundary holds them still.
-/
import proofs.«105951_j5961414607307_2_alg».proof.Proof.Gen.KernelIdeal.Frame
import proofs.«105951_j5961414607307_2_alg».proof.Proof.KRecs
import Idealize.ShloMosaic.Lib.StableHlo.Run

set_option maxRecDepth 16384

noncomputable section

namespace Cert.KernelIdeal.Chain

open Cert.KernelIdeal Cert.KernelIdeal.Gen Cert.HostPart
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- What every boundary from the first region on keeps: the sources and targets, the edge scale, the self-loop scale,
    and the arguments the later segments read. -/
structure Keeps (W : Valuation τ sig (Elt Ideal)) : Prop where
  s : W (Proc.devRef .tc main_v1) = src hostRecs (m ((c : Thread nD τ).loc main_arg1))
  t : W (Proc.devRef .tc main_v3) = tgt hostRecs (m ((c : Thread nD τ).loc main_arg1))
  es : W (Proc.devRef .tc main_v33) = edgeScale (F := Ideal) hostRecs (m ((c : Thread nD τ).loc main_arg1))
  ss : W (Proc.devRef .tc main_v17) = selfScale (F := Ideal) hostRecs (m ((c : Thread nD τ).loc main_arg1))
  a3 : W (Proc.devRef .tc main_arg3) = (m ((c : Thread nD τ).loc main_arg3))
  a4 : W (Proc.devRef .tc main_arg4) = (m ((c : Thread nD τ).loc main_arg4))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))
  a9 : W (Proc.devRef .tc main_arg9) = (m ((c : Thread nD τ).loc main_arg9))

/-! ## The first host stretch -/

set_option maxHeartbeats 4000000 in
theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp
  first | done | rfl

set_option maxHeartbeats 4000000 in
theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp
  first | done | rfl

set_option maxHeartbeats 4000000 in
theorem W1_s : W1 m ρ c (Proc.devRef .tc main_v1) = src hostRecs (m ((c : Thread nD τ).loc main_arg1)) := by
  show StableHlo.after hostOps0 (W0 m ρ c) (Proc.devRef .tc main_v1) = _
  dsimp only [hostOps0]
  after_results_simp
  first | done | rfl

set_option maxHeartbeats 4000000 in
theorem W1_t : W1 m ρ c (Proc.devRef .tc main_v3) = tgt hostRecs (m ((c : Thread nD τ).loc main_arg1)) := by
  show StableHlo.after hostOps0 (W0 m ρ c) (Proc.devRef .tc main_v3) = _
  dsimp only [hostOps0]
  after_results_simp
  first | done | rfl

set_option maxHeartbeats 4000000 in
theorem W1_es : W1 m ρ c (Proc.devRef .tc main_v33) = edgeScale (F := Ideal) hostRecs (m ((c : Thread nD τ).loc main_arg1)) := by
  show StableHlo.after hostOps0 (W0 m ρ c) (Proc.devRef .tc main_v33) = _
  dsimp only [hostOps0]
  after_results_simp
  first | done | rfl

set_option maxHeartbeats 4000000 in
theorem W1_ss : W1 m ρ c (Proc.devRef .tc main_v17) = selfScale (F := Ideal) hostRecs (m ((c : Thread nD τ).loc main_arg1)) := by
  show StableHlo.after hostOps0 (W0 m ρ c) (Proc.devRef .tc main_v17) = _
  dsimp only [hostOps0]
  after_results_simp
  first | done | rfl

set_option maxHeartbeats 4000000 in
theorem W1_a3 : W1 m ρ c (Proc.devRef .tc main_arg3) = (m ((c : Thread nD τ).loc main_arg3)) := by
  show StableHlo.after hostOps0 (W0 m ρ c) (Proc.devRef .tc main_arg3) = _
  dsimp only [hostOps0]
  after_results_simp
  first | done | rfl

set_option maxHeartbeats 4000000 in
theorem W1_a4 : W1 m ρ c (Proc.devRef .tc main_arg4) = (m ((c : Thread nD τ).loc main_arg4)) := by
  show StableHlo.after hostOps0 (W0 m ρ c) (Proc.devRef .tc main_arg4) = _
  dsimp only [hostOps0]
  after_results_simp
  first | done | rfl

set_option maxHeartbeats 4000000 in
theorem W1_a5 : W1 m ρ c (Proc.devRef .tc main_arg5) = (m ((c : Thread nD τ).loc main_arg5)) := by
  show StableHlo.after hostOps0 (W0 m ρ c) (Proc.devRef .tc main_arg5) = _
  dsimp only [hostOps0]
  after_results_simp
  first | done | rfl

set_option maxHeartbeats 4000000 in
theorem W1_a6 : W1 m ρ c (Proc.devRef .tc main_arg6) = (m ((c : Thread nD τ).loc main_arg6)) := by
  show StableHlo.after hostOps0 (W0 m ρ c) (Proc.devRef .tc main_arg6) = _
  dsimp only [hostOps0]
  after_results_simp
  first | done | rfl

set_option maxHeartbeats 4000000 in
theorem W1_a7 : W1 m ρ c (Proc.devRef .tc main_arg7) = (m ((c : Thread nD τ).loc main_arg7)) := by
  show StableHlo.after hostOps0 (W0 m ρ c) (Proc.devRef .tc main_arg7) = _
  dsimp only [hostOps0]
  after_results_simp
  first | done | rfl

set_option maxHeartbeats 4000000 in
theorem W1_a8 : W1 m ρ c (Proc.devRef .tc main_arg8) = (m ((c : Thread nD τ).loc main_arg8)) := by
  show StableHlo.after hostOps0 (W0 m ρ c) (Proc.devRef .tc main_arg8) = _
  dsimp only [hostOps0]
  after_results_simp
  first | done | rfl

set_option maxHeartbeats 4000000 in
theorem W1_a9 : W1 m ρ c (Proc.devRef .tc main_arg9) = (m ((c : Thread nD τ).loc main_arg9)) := by
  show StableHlo.after hostOps0 (W0 m ρ c) (Proc.devRef .tc main_arg9) = _
  dsimp only [hostOps0]
  after_results_simp
  first | done | rfl

/-- After the first host stretch the kept buffers hold the shared host functions of the edge list. -/
theorem keeps1 : Keeps m c (W1 m ρ c) where
  s := W1_s m ρ c
  t := W1_t m ρ c
  es := W1_es m ρ c
  ss := W1_ss m ρ c
  a3 := W1_a3 m ρ c
  a4 := W1_a4 m ρ c
  a5 := W1_a5 m ρ c
  a6 := W1_a6 m ρ c
  a7 := W1_a7 m ρ c
  a8 := W1_a8 m ρ c
  a9 := W1_a9 m ρ c

/-- Region 0 writes none of the kept buffers. -/
theorem keeps2 (h : Keeps m c (W1 m ρ c)) : Keeps m c (W2 m ρ c) where
    s := (W2_of_ne m ρ c main_v1 (by decide)).trans h.s
    t := (W2_of_ne m ρ c main_v3 (by decide)).trans h.t
    es := (W2_of_ne m ρ c main_v33 (by decide)).trans h.es
    ss := (W2_of_ne m ρ c main_v17 (by decide)).trans h.ss
    a3 := (W2_of_ne m ρ c main_arg3 (by decide)).trans h.a3
    a4 := (W2_of_ne m ρ c main_arg4 (by decide)).trans h.a4
    a5 := (W2_of_ne m ρ c main_arg5 (by decide)).trans h.a5
    a6 := (W2_of_ne m ρ c main_arg6 (by decide)).trans h.a6
    a7 := (W2_of_ne m ρ c main_arg7 (by decide)).trans h.a7
    a8 := (W2_of_ne m ρ c main_arg8 (by decide)).trans h.a8
    a9 := (W2_of_ne m ρ c main_arg9 (by decide)).trans h.a9

set_option maxHeartbeats 8000000 in
/-- The host stretch `hostOps1` writes none of the kept buffers. -/
theorem keeps3 (h : Keeps m c (W2 m ρ c)) : Keeps m c (W3 m ρ c) where
    s := by
      show StableHlo.after hostOps1 (W2 m ρ c) (Proc.devRef .tc main_v1) = _
      dsimp only [hostOps1]
      after_results_simp
      exact h.s
    t := by
      show StableHlo.after hostOps1 (W2 m ρ c) (Proc.devRef .tc main_v3) = _
      dsimp only [hostOps1]
      after_results_simp
      exact h.t
    es := by
      show StableHlo.after hostOps1 (W2 m ρ c) (Proc.devRef .tc main_v33) = _
      dsimp only [hostOps1]
      after_results_simp
      exact h.es
    ss := by
      show StableHlo.after hostOps1 (W2 m ρ c) (Proc.devRef .tc main_v17) = _
      dsimp only [hostOps1]
      after_results_simp
      exact h.ss
    a3 := by
      show StableHlo.after hostOps1 (W2 m ρ c) (Proc.devRef .tc main_arg3) = _
      dsimp only [hostOps1]
      after_results_simp
      exact h.a3
    a4 := by
      show StableHlo.after hostOps1 (W2 m ρ c) (Proc.devRef .tc main_arg4) = _
      dsimp only [hostOps1]
      after_results_simp
      exact h.a4
    a5 := by
      show StableHlo.after hostOps1 (W2 m ρ c) (Proc.devRef .tc main_arg5) = _
      dsimp only [hostOps1]
      after_results_simp
      exact h.a5
    a6 := by
      show StableHlo.after hostOps1 (W2 m ρ c) (Proc.devRef .tc main_arg6) = _
      dsimp only [hostOps1]
      after_results_simp
      exact h.a6
    a7 := by
      show StableHlo.after hostOps1 (W2 m ρ c) (Proc.devRef .tc main_arg7) = _
      dsimp only [hostOps1]
      after_results_simp
      exact h.a7
    a8 := by
      show StableHlo.after hostOps1 (W2 m ρ c) (Proc.devRef .tc main_arg8) = _
      dsimp only [hostOps1]
      after_results_simp
      exact h.a8
    a9 := by
      show StableHlo.after hostOps1 (W2 m ρ c) (Proc.devRef .tc main_arg9) = _
      dsimp only [hostOps1]
      after_results_simp
      exact h.a9

/-- Region 1 writes none of the kept buffers. -/
theorem keeps4 (h : Keeps m c (W3 m ρ c)) : Keeps m c (W4 m ρ c) where
    s := (W4_of_ne m ρ c main_v1 (by decide)).trans h.s
    t := (W4_of_ne m ρ c main_v3 (by decide)).trans h.t
    es := (W4_of_ne m ρ c main_v33 (by decide)).trans h.es
    ss := (W4_arr m ρ c 2).trans ((((dat1 (V3 m ρ) c).arrAt_in 2 rfl _).trans (A_eq1 (V3 m ρ) c 2)).trans h.ss)
    a3 := (W4_of_ne m ρ c main_arg3 (by decide)).trans h.a3
    a4 := (W4_of_ne m ρ c main_arg4 (by decide)).trans h.a4
    a5 := (W4_of_ne m ρ c main_arg5 (by decide)).trans h.a5
    a6 := (W4_of_ne m ρ c main_arg6 (by decide)).trans h.a6
    a7 := (W4_of_ne m ρ c main_arg7 (by decide)).trans h.a7
    a8 := (W4_of_ne m ρ c main_arg8 (by decide)).trans h.a8
    a9 := (W4_of_ne m ρ c main_arg9 (by decide)).trans h.a9

/-- Region 2 writes none of the kept buffers. -/
theorem keeps5 (h : Keeps m c (W4 m ρ c)) : Keeps m c (W5 m ρ c) where
    s := (W5_of_ne m ρ c main_v1 (by decide)).trans h.s
    t := (W5_of_ne m ρ c main_v3 (by decide)).trans h.t
    es := (W5_of_ne m ρ c main_v33 (by decide)).trans h.es
    ss := (W5_of_ne m ρ c main_v17 (by decide)).trans h.ss
    a3 := (W5_of_ne m ρ c main_arg3 (by decide)).trans h.a3
    a4 := (W5_arr m ρ c 1).trans ((((dat2 (V4 m ρ) c).arrAt_in 1 rfl _).trans (A_eq2 (V4 m ρ) c 1)).trans h.a4)
    a5 := (W5_of_ne m ρ c main_arg5 (by decide)).trans h.a5
    a6 := (W5_of_ne m ρ c main_arg6 (by decide)).trans h.a6
    a7 := (W5_of_ne m ρ c main_arg7 (by decide)).trans h.a7
    a8 := (W5_of_ne m ρ c main_arg8 (by decide)).trans h.a8
    a9 := (W5_of_ne m ρ c main_arg9 (by decide)).trans h.a9

set_option maxHeartbeats 8000000 in
/-- The host stretch `hostOps3` writes none of the kept buffers. -/
theorem keeps6 (h : Keeps m c (W5 m ρ c)) : Keeps m c (W6 m ρ c) where
    s := by
      show StableHlo.after hostOps3 (W5 m ρ c) (Proc.devRef .tc main_v1) = _
      dsimp only [hostOps3]
      after_results_simp
      exact h.s
    t := by
      show StableHlo.after hostOps3 (W5 m ρ c) (Proc.devRef .tc main_v3) = _
      dsimp only [hostOps3]
      after_results_simp
      exact h.t
    es := by
      show StableHlo.after hostOps3 (W5 m ρ c) (Proc.devRef .tc main_v33) = _
      dsimp only [hostOps3]
      after_results_simp
      exact h.es
    ss := by
      show StableHlo.after hostOps3 (W5 m ρ c) (Proc.devRef .tc main_v17) = _
      dsimp only [hostOps3]
      after_results_simp
      exact h.ss
    a3 := by
      show StableHlo.after hostOps3 (W5 m ρ c) (Proc.devRef .tc main_arg3) = _
      dsimp only [hostOps3]
      after_results_simp
      exact h.a3
    a4 := by
      show StableHlo.after hostOps3 (W5 m ρ c) (Proc.devRef .tc main_arg4) = _
      dsimp only [hostOps3]
      after_results_simp
      exact h.a4
    a5 := by
      show StableHlo.after hostOps3 (W5 m ρ c) (Proc.devRef .tc main_arg5) = _
      dsimp only [hostOps3]
      after_results_simp
      exact h.a5
    a6 := by
      show StableHlo.after hostOps3 (W5 m ρ c) (Proc.devRef .tc main_arg6) = _
      dsimp only [hostOps3]
      after_results_simp
      exact h.a6
    a7 := by
      show StableHlo.after hostOps3 (W5 m ρ c) (Proc.devRef .tc main_arg7) = _
      dsimp only [hostOps3]
      after_results_simp
      exact h.a7
    a8 := by
      show StableHlo.after hostOps3 (W5 m ρ c) (Proc.devRef .tc main_arg8) = _
      dsimp only [hostOps3]
      after_results_simp
      exact h.a8
    a9 := by
      show StableHlo.after hostOps3 (W5 m ρ c) (Proc.devRef .tc main_arg9) = _
      dsimp only [hostOps3]
      after_results_simp
      exact h.a9

/-- Region 3 writes none of the kept buffers. -/
theorem keeps7 (h : Keeps m c (W6 m ρ c)) : Keeps m c (W7 m ρ c) where
    s := (W7_of_ne m ρ c main_v1 (by decide)).trans h.s
    t := (W7_of_ne m ρ c main_v3 (by decide)).trans h.t
    es := (W7_of_ne m ρ c main_v33 (by decide)).trans h.es
    ss := (W7_arr m ρ c 2).trans ((((dat3 (V6 m ρ) c).arrAt_in 2 rfl _).trans (A_eq3 (V6 m ρ) c 2)).trans h.ss)
    a3 := (W7_of_ne m ρ c main_arg3 (by decide)).trans h.a3
    a4 := (W7_of_ne m ρ c main_arg4 (by decide)).trans h.a4
    a5 := (W7_of_ne m ρ c main_arg5 (by decide)).trans h.a5
    a6 := (W7_of_ne m ρ c main_arg6 (by decide)).trans h.a6
    a7 := (W7_of_ne m ρ c main_arg7 (by decide)).trans h.a7
    a8 := (W7_of_ne m ρ c main_arg8 (by decide)).trans h.a8
    a9 := (W7_of_ne m ρ c main_arg9 (by decide)).trans h.a9

/-- Region 4 writes none of the kept buffers. -/
theorem keeps8 (h : Keeps m c (W7 m ρ c)) : Keeps m c (W8 m ρ c) where
    s := (W8_of_ne m ρ c main_v1 (by decide)).trans h.s
    t := (W8_of_ne m ρ c main_v3 (by decide)).trans h.t
    es := (W8_of_ne m ρ c main_v33 (by decide)).trans h.es
    ss := (W8_of_ne m ρ c main_v17 (by decide)).trans h.ss
    a3 := (W8_of_ne m ρ c main_arg3 (by decide)).trans h.a3
    a4 := (W8_of_ne m ρ c main_arg4 (by decide)).trans h.a4
    a5 := (W8_of_ne m ρ c main_arg5 (by decide)).trans h.a5
    a6 := (W8_arr m ρ c 1).trans ((((dat4 (V7 m ρ) c).arrAt_in 1 rfl _).trans (A_eq4 (V7 m ρ) c 1)).trans h.a6)
    a7 := (W8_of_ne m ρ c main_arg7 (by decide)).trans h.a7
    a8 := (W8_of_ne m ρ c main_arg8 (by decide)).trans h.a8
    a9 := (W8_of_ne m ρ c main_arg9 (by decide)).trans h.a9

set_option maxHeartbeats 8000000 in
/-- The host stretch `hostOps5` writes none of the kept buffers. -/
theorem keeps9 (h : Keeps m c (W8 m ρ c)) : Keeps m c (W9 m ρ c) where
    s := by
      show StableHlo.after hostOps5 (W8 m ρ c) (Proc.devRef .tc main_v1) = _
      dsimp only [hostOps5]
      after_results_simp
      exact h.s
    t := by
      show StableHlo.after hostOps5 (W8 m ρ c) (Proc.devRef .tc main_v3) = _
      dsimp only [hostOps5]
      after_results_simp
      exact h.t
    es := by
      show StableHlo.after hostOps5 (W8 m ρ c) (Proc.devRef .tc main_v33) = _
      dsimp only [hostOps5]
      after_results_simp
      exact h.es
    ss := by
      show StableHlo.after hostOps5 (W8 m ρ c) (Proc.devRef .tc main_v17) = _
      dsimp only [hostOps5]
      after_results_simp
      exact h.ss
    a3 := by
      show StableHlo.after hostOps5 (W8 m ρ c) (Proc.devRef .tc main_arg3) = _
      dsimp only [hostOps5]
      after_results_simp
      exact h.a3
    a4 := by
      show StableHlo.after hostOps5 (W8 m ρ c) (Proc.devRef .tc main_arg4) = _
      dsimp only [hostOps5]
      after_results_simp
      exact h.a4
    a5 := by
      show StableHlo.after hostOps5 (W8 m ρ c) (Proc.devRef .tc main_arg5) = _
      dsimp only [hostOps5]
      after_results_simp
      exact h.a5
    a6 := by
      show StableHlo.after hostOps5 (W8 m ρ c) (Proc.devRef .tc main_arg6) = _
      dsimp only [hostOps5]
      after_results_simp
      exact h.a6
    a7 := by
      show StableHlo.after hostOps5 (W8 m ρ c) (Proc.devRef .tc main_arg7) = _
      dsimp only [hostOps5]
      after_results_simp
      exact h.a7
    a8 := by
      show StableHlo.after hostOps5 (W8 m ρ c) (Proc.devRef .tc main_arg8) = _
      dsimp only [hostOps5]
      after_results_simp
      exact h.a8
    a9 := by
      show StableHlo.after hostOps5 (W8 m ρ c) (Proc.devRef .tc main_arg9) = _
      dsimp only [hostOps5]
      after_results_simp
      exact h.a9

/-- Region 5 writes none of the kept buffers. -/
theorem keeps10 (h : Keeps m c (W9 m ρ c)) : Keeps m c (W10 m ρ c) where
    s := (W10_of_ne m ρ c main_v1 (by decide)).trans h.s
    t := (W10_of_ne m ρ c main_v3 (by decide)).trans h.t
    es := (W10_of_ne m ρ c main_v33 (by decide)).trans h.es
    ss := (W10_arr m ρ c 2).trans ((((dat5 (V9 m ρ) c).arrAt_in 2 rfl _).trans (A_eq5 (V9 m ρ) c 2)).trans h.ss)
    a3 := (W10_of_ne m ρ c main_arg3 (by decide)).trans h.a3
    a4 := (W10_of_ne m ρ c main_arg4 (by decide)).trans h.a4
    a5 := (W10_of_ne m ρ c main_arg5 (by decide)).trans h.a5
    a6 := (W10_of_ne m ρ c main_arg6 (by decide)).trans h.a6
    a7 := (W10_of_ne m ρ c main_arg7 (by decide)).trans h.a7
    a8 := (W10_of_ne m ρ c main_arg8 (by decide)).trans h.a8
    a9 := (W10_of_ne m ρ c main_arg9 (by decide)).trans h.a9

end Cert.KernelIdeal.Chain

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibDotHost.lean ====
/-
  The host's matrix product read at an index. For the plain dimension numbers (rows × contraction times
  contraction × columns) a `stablehlo.dot_general`, at the ideal values, is at (a, b) the sum over the contracted
  coordinate `c` of the left operand at (a, c) times the right operand at (c, b) — the same sum a `tpu.matmul` into the
  zero accumulator is (LibMat), so a row block of the one is the matching rows of the other.
-/
import Idealize.ShloMosaic.PureOps.Ideal.Laws
import Idealize.ShloMosaic.Lib.ValueIdx
import Idealize.ShloMosaic.Lib.ValueLayout
import proofs.«105951_j5961414607307_2_alg».proof.Proof.LibMat

noncomputable section

open scoped BigOperators

namespace Cert.LibDotHost

open Idealize.ShloMosaic Idealize.ShloMosaic.ValueIdx Cert.LibMat

/-- A plain host matrix product at (a, b): the sum over the contracted coordinate. Generic in the three extents, the
    operands' formats, the precision and the witness of the dimension numbers' well-formedness. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (plainDims w) prec A B (ix2 a b) = ∑ c : Fin k, A (ix2 a c) * B (ix2 c b) := by
  show FloatOps.dotGeneral _ prec .single A B (ix2 a b) = _
  rw [Ideal.dotGeneral_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row block of a plain `tpu.matmul` into the zero accumulator is the matching rows of the host's product: if the
    block's left operand at (p, c) is the whole left operand at (a, c) and the right operands agree on column `q` / `b`,
    then the block's product at (p, q) is the whole product at (a, b). -/
theorem matmul_block_eq_dotGeneral {m m' k n n' : ℕ} {φ₁ φ₂ ψ₁ ψ₂ : FTy}
    (w : DotDims.WF ⟨2, ![m, k]⟩ ⟨2, ![k, n]⟩ ⟨2, ![m, n]⟩ [1] [0] [0] [1] [] [])
    (w' : DotDims.WF ⟨2, ![m', k]⟩ ⟨2, ![k, n']⟩ ⟨2, ![m', n']⟩ [1] [0] [0] [1] [] [])
    (prec prec' : Option ContractPrecision)
    (x0 : FVec Ideal ⟨2, ![m, k]⟩ φ₁) (x1 : FVec Ideal ⟨2, ![k, n]⟩ φ₂)
    (X : FVec Ideal ⟨2, ![m', k]⟩ ψ₁) (W : FVec Ideal ⟨2, ![k, n']⟩ ψ₂)
    (p : Fin m) (q : Fin n) (a : Fin m') (b : Fin n')
    (h0 : ∀ c : Fin k, x0 (ix2 p c) = X (ix2 a c)) (h1 : ∀ c : Fin k, x1 (ix2 c q) = W (ix2 c b)) :
    matmul (plainDims w) prec x0 x1 (constant ⟨2, ![m, n]⟩ .f32 0x00000000#32) (ix2 p q)
      = Host.dotGeneral (plainDims w') prec' X W (ix2 a b) :=
  (matmul_plain_apply w prec x0 x1 p q).trans
    ((Finset.sum_congr rfl fun c _ => by rw [h0 c, h1 c]).trans (dotGeneral_plain_apply w' prec' X W a b).symm)

end Cert.LibDotHost

end
-- ==== Proof.Whole.lean ====
/-
  The whole-array functions both programs compute, at the ideal values. A layer of the network applies, to node
  features `X` of 50000 nodes by 128 channels: the product with a 128 by 128 weight matrix; the neighbourhood sum of
  the product's rows (a gather by source node, a scale per edge, a scatter-add by target node), which both programs
  compute by the same host operations and which enters here as an array `A`; the self-loop term, the product scaled
  row by row by a column `D`; the bias `b` added to every row; and the leaky rectifier, applied entry by entry.
-/
import Idealize.ShloMosaic.PureOps.Ideal.Laws
import Idealize.ShloMosaic.Lib.ValueIdx
import Idealize.ShloMosaic.Lib.ValueLayout
import proofs.«105951_j5961414607307_2_alg».proof.Proof.LibMat
import proofs.«105951_j5961414607307_2_alg».proof.Proof.HostPart

noncomputable section

namespace Cert.Whole

open Idealize.ShloMosaic Idealize.ShloMosaic.ValueIdx Cert.HostPart

/-- The plain dimension numbers of the product of node features with a weight matrix are well formed. -/
abbrev PlainWF : Prop := DotDims.WF SNxD SDxD SNxD [1] [0] [0] [1] [] []

/-- The product of the node features with a weight matrix, as the host computes it: at (r, q) the sum over the
    channel `k` of `X (r, k) · W (k, q)`. -/
def prod (w : PlainWF) (X : FVec Ideal SNxD .f32) (W : FVec Ideal SDxD .f32) : FVec Ideal SNxD .f32 :=
  Host.dotGeneral (Cert.LibMat.plainDims w) none X W

/-- The leaky rectifier on one extended real: `v` where `v > 0`, and `0.2 · v` (the binary32 nearest 0.2) elsewhere. -/
def leaky (v : Ideal .f32) : Ideal .f32 :=
  Scalar.select (FloatOps.cmpf .ogt v (Ideal.ofBits .f32 0x00000000#32)) v (Ideal.ofBits .f32 0x3E4CCCCD#32 * v)

/-- The first layer's combination: entry (r, q) is the rectifier of `A (r, q) + H (r, q) · D (r, 0) + b q`. -/
def comb (A H : FVec Ideal SNxD .f32) (D : FVec Ideal SNx1 .f32) (b : FVec Ideal SD .f32) : FVec Ideal SNxD .f32 :=
  fun i => leaky (A i + H i * D (ix2 (⟨(i 0).val, idx2_lt0 i⟩ : Fin 50000) (0 : Fin 1)) + b (ix1 (⟨(i 1).val, idx2_lt1 i⟩ : Fin 128)))

/-- A later layer's combination, with the residual `R` added first: entry (r, q) is the rectifier of
    `R (r, q) + A (r, q) + H (r, q) · D (r, 0) + b q`, the sum taken from the left. -/
def combR (A H : FVec Ideal SNxD .f32) (D : FVec Ideal SNx1 .f32) (b : FVec Ideal SD .f32) (R : FVec Ideal SNxD .f32) : FVec Ideal SNxD .f32 :=
  fun i => leaky (R i + A i + H i * D (ix2 (⟨(i 0).val, idx2_lt0 i⟩ : Fin 50000) (0 : Fin 1)) + b (ix1 (⟨(i 1).val, idx2_lt1 i⟩ : Fin 128)))

theorem comb_apply (A H : FVec Ideal SNxD .f32) (D : FVec Ideal SNx1 .f32) (b : FVec Ideal SD .f32) (r : Fin 50000) (q : Fin 128) :
    comb A H D b (ix2 r q) = leaky (A (ix2 r q) + H (ix2 r q) * D (ix2 r (0 : Fin 1)) + b (ix1 q)) := rfl

theorem combR_apply (A H : FVec Ideal SNxD .f32) (D : FVec Ideal SNx1 .f32) (b : FVec Ideal SD .f32) (R : FVec Ideal SNxD .f32) (r : Fin 50000) (q : Fin 128) :
    combR A H D b R (ix2 r q) = leaky (R (ix2 r q) + A (ix2 r q) + H (ix2 r q) * D (ix2 r (0 : Fin 1)) + b (ix1 q)) := rfl

/-! ## The network -/

variable (R : HostRecs) (w : PlainWF)

/-- The first layer: the combination of the neighbourhood sum of `X · W`, of `X · W` itself scaled by the self-loop
    scale, and of the bias. -/
def layer1 (x : FVec Ideal SNxD .f32) (e : IVec S2xE 32) (W : FVec Ideal SDxD .f32) (b : FVec Ideal SD .f32) : FVec Ideal SNxD .f32 :=
  comb (agg (F := Ideal) R e (prod w x W)) (prod w x W) (selfScale (F := Ideal) R e) b

/-- A later layer: the same combination of the layer's input `h`, with `h` itself added (the residual). -/
def layerR (h : FVec Ideal SNxD .f32) (e : IVec S2xE 32) (W : FVec Ideal SDxD .f32) (b : FVec Ideal SD .f32) : FVec Ideal SNxD .f32 :=
  combR (agg (F := Ideal) R e (prod w h W)) (prod w h W) (selfScale (F := Ideal) R e) b h

/-- The whole network: three layers and the projection. -/
def net (x : FVec Ideal SNxD .f32) (e : IVec S2xE 32) (W1 : FVec Ideal SDxD .f32) (b1 : FVec Ideal SD .f32)
    (W2 : FVec Ideal SDxD .f32) (b2 : FVec Ideal SD .f32) (W3 : FVec Ideal SDxD .f32) (b3 : FVec Ideal SD .f32)
    (lw : FVec Ideal SDx1 .f32) (lb : FVec Ideal S1 .f32) : FVec Ideal SN .f32 :=
  project (F := Ideal) R (layerR R w (layerR R w (layer1 R w x e W1 b1) e W2 b2) e W3 b3) lw lb

end Cert.Whole

end
-- ==== Proof.Lin0.lean ====
/-
  Region 0 of the idealized kernel program: one linear layer, `X · W`, ten row blocks of 5000 rows each.
  At a grid point the body loads a block of 5000 rows of the node features and the whole weight matrix, multiplies
  them into a zero accumulator and stores the block of the product. An entry of a block's product is the sum over
  the channel `k` of the block's row times the weight's column, which is the matching entry of the product of the
  whole arrays; the ten blocks cover every row; so the region's output array ends at the product of the whole arrays.
-/
import proofs.«105951_j5961414607307_2_alg».proof.Proof.Gen.KernelIdeal.Frame
import proofs.«105951_j5961414607307_2_alg».proof.Proof.LibDotHost
import proofs.«105951_j5961414607307_2_alg».proof.Proof.Whole
import Idealize.ShloMosaic.Lib.Pipeline.Value
import Idealize.ShloMosaic.Lib.ValueIdx

set_option maxRecDepth 16384

noncomputable section

namespace Cert.KernelIdeal.Lin0

open Cert.KernelIdeal Cert.KernelIdeal.Gen Cert.Whole Cert.HostPart
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of a block's product is the matching entry of the whole product, when the block's rows are rows of
    the whole left operand and the right operands agree. -/
theorem pay_at (w : PlainWF) (x0 : Vec Ideal S5000x128 .f32) (x1 : Vec Ideal S128x128 .f32)
    (X : FVec Ideal SNxD .f32) (W : FVec Ideal SDxD .f32) (p : Fin 5000) (q : Fin 128) (a : Fin 50000)
    (h0 : ∀ k : Fin 128, x0 (ix2 p k) = X (ix2 a k)) (h1 : ∀ k : Fin 128, x1 (ix2 k q) = W (ix2 k q)) :
    k0_pay1 x0 x1 (ix2 p q) = prod w X W (ix2 a q) := by
  unfold k0_pay1 prod
  exact Cert.LibDotHost.matmul_block_eq_dotGeneral Facts₀.dot_S5000x128_S128x128_S5000x128_1_0_0_1_n_n_wf w none none _ _ X W p q a q
    (fun k => h0 k) (fun k => h1 k)

/-- The printed index maps over the ten grid points: the feature window and the output window sit at the same row
    block, column block 0; the weight window is the whole matrix. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

set_option maxHeartbeats 2000000 in
/-- What point `t` writes back is block `t` of the whole product. -/
theorem flushed_eq (w : PlainWF) (c : Dev nD) (t : Fin cfg0.N) :
    (dat0 V c).flushed 2 t = ((cfg0.win 2).blk t).view.read (Elt Ideal) (prod w (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have ha : win0_2.index t (0 : Fin 2) * 5000 + p.val < 50000 := by have := p.isLt; omega
  refine (pay_at w _ _ (V c main_arg0) (V c main_arg2) p q ⟨win0_2.index t (0 : Fin 2) * 5000 + p.val, ha⟩ ?_ ?_).trans ?_
  · intro k
    show V c main_arg0 (((cfg0.win 0).blk t).view.emb (ix2 p k)) = V c main_arg0 (ix2 ⟨win0_2.index t (0 : Fin 2) * 5000 + p.val, ha⟩ k)
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · intro k
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show prod w (V c main_arg0) (V c main_arg2) (ix2 ⟨win0_2.index t (0 : Fin 2) * 5000 + p.val, ha⟩ q)
      = prod w (V c main_arg0) (V c main_arg2) (((cfg0.win 2).blk t).view.emb (ix2 p q))
    refine congrArg _ (funext fun a => Fin.ext ?_)
    match a with
    | ⟨0, _⟩ => show win0_2.index t (0 : Fin 2) * 5000 + p.val = win0_2.index t (0 : Fin 2) * 5000 + 1 * p.val; omega
    | ⟨1, _⟩ => show q.val = win0_2.index t (1 : Fin 2) * 128 + 1 * q.val; omega

/-- An index of the output array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every row is in some point's block: row `r` in block `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after the region: the product of the arrays the region found. -/
theorem final (w : PlainWF) (c : Dev nD) :
    (dat0 V c).arrAt 2 cfg0.N = prod w (V c main_arg0) (V c main_arg2) :=
  (dat0 V c).arrAt_eq_of_cover 2 _ (fun t _ => flushed_eq V w c t) cover

end Cert.KernelIdeal.Lin0

end
-- ==== Proof.Lin2.lean ====
/-
  Region 2 of the idealized kernel program: one linear layer, `X · W`, ten row blocks of 5000 rows each.
  At a grid point the body loads a block of 5000 rows of the node features and the whole weight matrix, multiplies
  them into a zero accumulator and stores the block of the product. An entry of a block's product is the sum over
  the channel `k` of the block's row times the weight's column, which is the matching entry of the product of the
  whole arrays; the ten blocks cover every row; so the region's output array ends at the product of the whole arrays.
-/
import proofs.«105951_j5961414607307_2_alg».proof.Proof.Gen.KernelIdeal.Frame
import proofs.«105951_j5961414607307_2_alg».proof.Proof.LibDotHost
import proofs.«105951_j5961414607307_2_alg».proof.Proof.Whole
import Idealize.ShloMosaic.Lib.Pipeline.Value
import Idealize.ShloMosaic.Lib.ValueIdx

set_option maxRecDepth 16384

noncomputable section

namespace Cert.KernelIdeal.Lin2

open Cert.KernelIdeal Cert.KernelIdeal.Gen Cert.Whole Cert.HostPart
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of a block's product is the matching entry of the whole product, when the block's rows are rows of
    the whole left operand and the right operands agree. -/
theorem pay_at (w : PlainWF) (x0 : Vec Ideal S5000x128 .f32) (x1 : Vec Ideal S128x128 .f32)
    (X : FVec Ideal SNxD .f32) (W : FVec Ideal SDxD .f32) (p : Fin 5000) (q : Fin 128) (a : Fin 50000)
    (h0 : ∀ k : Fin 128, x0 (ix2 p k) = X (ix2 a k)) (h1 : ∀ k : Fin 128, x1 (ix2 k q) = W (ix2 k q)) :
    k2_pay1 x0 x1 (ix2 p q) = prod w X W (ix2 a q) := by
  unfold k2_pay1 prod
  rw [shapeCast_self]
  exact Cert.LibDotHost.matmul_block_eq_dotGeneral Facts₀.dot_S5000x128_S128x128_S5000x128_1_0_0_1_n_n_wf w none none _ _ X W p q a q
    (fun k => h0 k) (fun k => h1 k)

/-- The printed index maps over the ten grid points: the feature window and the output window sit at the same row
    block, column block 0; the weight window is the whole matrix. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

set_option maxHeartbeats 2000000 in
/-- What point `t` writes back is block `t` of the whole product. -/
theorem flushed_eq (w : PlainWF) (c : Dev nD) (t : Fin cfg2.N) :
    (dat2 V c).flushed 2 t = ((cfg2.win 2).blk t).view.read (Elt Ideal) (prod w (V c main_v48) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have ha : win2_2.index t (0 : Fin 2) * 5000 + p.val < 50000 := by have := p.isLt; omega
  refine (pay_at w _ _ (V c main_v48) (V c main_arg4) p q ⟨win2_2.index t (0 : Fin 2) * 5000 + p.val, ha⟩ ?_ ?_).trans ?_
  · intro k
    show V c main_v48 (((cfg2.win 0).blk t).view.emb (ix2 p k)) = V c main_v48 (ix2 ⟨win2_2.index t (0 : Fin 2) * 5000 + p.val, ha⟩ k)
    refine congrArg _ (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  · intro k
    show V c main_arg4 (((cfg2.win 1).blk t).view.emb (ix2 k q)) = V c main_arg4 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show prod w (V c main_v48) (V c main_arg4) (ix2 ⟨win2_2.index t (0 : Fin 2) * 5000 + p.val, ha⟩ q)
      = prod w (V c main_v48) (V c main_arg4) (((cfg2.win 2).blk t).view.emb (ix2 p q))
    refine congrArg _ (funext fun a => Fin.ext ?_)
    match a with
    | ⟨0, _⟩ => show win2_2.index t (0 : Fin 2) * 5000 + p.val = win2_2.index t (0 : Fin 2) * 5000 + 1 * p.val; omega
    | ⟨1, _⟩ => show q.val = win2_2.index t (1 : Fin 2) * 128 + 1 * q.val; omega

/-- An index of the output array is in point `t`'s block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- Every row is in some point's block: row `r` in block `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's output array after the region: the product of the arrays the region found. -/
theorem final (w : PlainWF) (c : Dev nD) :
    (dat2 V c).arrAt 2 cfg2.N = prod w (V c main_v48) (V c main_arg4) :=
  (dat2 V c).arrAt_eq_of_cover 2 _ (fun t _ => flushed_eq V w c t) cover

end Cert.KernelIdeal.Lin2

end
-- ==== Proof.Lin4.lean ====
/-
  Region 4 of the idealized kernel program: one linear layer, `X · W`, ten row blocks of 5000 rows each.
  At a grid point the body loads a block of 5000 rows of the node features and the whole weight matrix, multiplies
  them into a zero accumulator and stores the block of the product. An entry of a block's product is the sum over
  the channel `k` of the block's row times the weight's column, which is the matching entry of the product of the
  whole arrays; the ten blocks cover every row; so the region's output array ends at the product of the whole arrays.
-/
import proofs.«105951_j5961414607307_2_alg».proof.Proof.Gen.KernelIdeal.Frame
import proofs.«105951_j5961414607307_2_alg».proof.Proof.LibDotHost
import proofs.«105951_j5961414607307_2_alg».proof.Proof.Whole
import Idealize.ShloMosaic.Lib.Pipeline.Value
import Idealize.ShloMosaic.Lib.ValueIdx

set_option maxRecDepth 16384

noncomputable section

namespace Cert.KernelIdeal.Lin4

open Cert.KernelIdeal Cert.KernelIdeal.Gen Cert.Whole Cert.HostPart
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of a block's product is the matching entry of the whole product, when the block's rows are rows of
    the whole left operand and the right operands agree. -/
theorem pay_at (w : PlainWF) (x0 : Vec Ideal S5000x128 .f32) (x1 : Vec Ideal S128x128 .f32)
    (X : FVec Ideal SNxD .f32) (W : FVec Ideal SDxD .f32) (p : Fin 5000) (q : Fin 128) (a : Fin 50000)
    (h0 : ∀ k : Fin 128, x0 (ix2 p k) = X (ix2 a k)) (h1 : ∀ k : Fin 128, x1 (ix2 k q) = W (ix2 k q)) :
    k4_pay1 x0 x1 (ix2 p q) = prod w X W (ix2 a q) := by
  unfold k4_pay1 prod
  rw [shapeCast_self]
  exact Cert.LibDotHost.matmul_block_eq_dotGeneral Facts₀.dot_S5000x128_S128x128_S5000x128_1_0_0_1_n_n_wf w none none _ _ X W p q a q
    (fun k => h0 k) (fun k => h1 k)

/-- The printed index maps over the ten grid points: the feature window and the output window sit at the same row
    block, column block 0; the weight window is the whole matrix. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

set_option maxHeartbeats 2000000 in
/-- What point `t` writes back is block `t` of the whole product. -/
theorem flushed_eq (w : PlainWF) (c : Dev nD) (t : Fin cfg4.N) :
    (dat4 V c).flushed 2 t = ((cfg4.win 2).blk t).view.read (Elt Ideal) (prod w (V c main_v63) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have ha : win4_2.index t (0 : Fin 2) * 5000 + p.val < 50000 := by have := p.isLt; omega
  refine (pay_at w _ _ (V c main_v63) (V c main_arg6) p q ⟨win4_2.index t (0 : Fin 2) * 5000 + p.val, ha⟩ ?_ ?_).trans ?_
  · intro k
    show V c main_v63 (((cfg4.win 0).blk t).view.emb (ix2 p k)) = V c main_v63 (ix2 ⟨win4_2.index t (0 : Fin 2) * 5000 + p.val, ha⟩ k)
    refine congrArg _ (funext fun a => Fin.ext ?_)
    match a with
    | ⟨0, _⟩ => show win4_0.index t (0 : Fin 2) * 5000 + 1 * p.val = win4_2.index t (0 : Fin 2) * 5000 + p.val; omega
    | ⟨1, _⟩ => show win4_0.index t (1 : Fin 2) * 128 + 1 * k.val = k.val; omega
  · intro k
    show V c main_arg6 (((cfg4.win 1).blk t).view.emb (ix2 k q)) = V c main_arg6 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  · show prod w (V c main_v63) (V c main_arg6) (ix2 ⟨win4_2.index t (0 : Fin 2) * 5000 + p.val, ha⟩ q)
      = prod w (V c main_v63) (V c main_arg6) (((cfg4.win 2).blk t).view.emb (ix2 p q))
    refine congrArg _ (funext fun a => Fin.ext ?_)
    match a with
    | ⟨0, _⟩ => show win4_2.index t (0 : Fin 2) * 5000 + p.val = win4_2.index t (0 : Fin 2) * 5000 + 1 * p.val; omega
    | ⟨1, _⟩ => show q.val = win4_2.index t (1 : Fin 2) * 128 + 1 * q.val; omega

/-- An index of the output array is in point `t`'s block iff each coordinate is in the block's range. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Every row is in some point's block: row `r` in block `r / 5000`. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The region's output array after the region: the product of the arrays the region found. -/
theorem final (w : PlainWF) (c : Dev nD) :
    (dat4 V c).arrAt 2 cfg4.N = prod w (V c main_v63) (V c main_arg6) :=
  (dat4 V c).arrAt_eq_of_cover 2 _ (fun t _ => flushed_eq V w c t) cover

end Cert.KernelIdeal.Lin4

end
-- ==== Proof.Comb1.lean ====
/-
  Region 1 of the idealized kernel program: the combination that ends a layer, ten row blocks of 5000 rows each.
  At a grid point the body loads a block of the neighbourhood sums `A`, of the layer's linear output `H`, of the
  self-loop scale `D` (one column) and the bias row, and stores the leaky rectifier of
  `A + H · D + b`, the column and the row spread over the block. Entry (p, q) of the block depends on row
  `5000 · block + p` of the arrays only; the ten blocks cover every row; so the region's output array is that
  combination of the whole arrays, entry by entry.
-/
import proofs.«105951_j5961414607307_2_alg».proof.Proof.Gen.KernelIdeal.Frame
import proofs.«105951_j5961414607307_2_alg».proof.Proof.Whole
import Idealize.ShloMosaic.Lib.Pipeline.Value
import Idealize.ShloMosaic.Lib.ValueIdx

set_option maxRecDepth 16384

noncomputable section

namespace Cert.KernelIdeal.Comb1

open Cert.KernelIdeal Cert.KernelIdeal.Gen Cert.Whole Cert.HostPart
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the loaded blocks: the column is read at the entry's row, the bias row at
    the entry's column. -/
theorem pay_at (x0 x1 : Vec Ideal S5000x128 .f32) (x2 : Vec Ideal S5000x1 .f32) (x3 : Vec Ideal S1x128 .f32) (p : Fin 5000) (q : Fin 128) :
    k1_pay1 x0 x1 x2 x3 (ix2 p q) = leaky (x0 (ix2 p q) + x1 (ix2 p q) * x2 (ix2 p (0 : Fin 1)) + x3 (ix2 (0 : Fin 1) q)) := by
  have hD : broadcastTo S5000x128 x2 Facts₀.broadcasts_S5000x1_S5000x128 (ix2 p q) = x2 (ix2 p (0 : Fin 1)) :=
    broadcastTo_apply x2 _ (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  have hB : broadcastTo S5000x128 x3 Facts₀.broadcasts_S1x128_S5000x128 (ix2 p q) = x3 (ix2 (0 : Fin 1) q) :=
    broadcastTo_apply x3 _ (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])
  unfold k1_pay1 leaky
  simp only [shapeCast_self, select_apply, cmpf_apply, mulf_apply, addf_apply, broadcast_apply, hD, hB]
  rfl

/-- The printed index maps over the ten grid points: every row-blocked window sits at the output's row block, column
    block 0; the bias window is the whole row. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every row block is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

set_option maxHeartbeats 2000000 in
/-- What point `t` writes back is block `t` of the combination of the whole arrays; `b` is the bias as a vector,
    which the bias window's one-row array holds (`hb`). -/
theorem flushed_eq (b : FVec Ideal SD .f32) (c : Dev nD) (hb : ∀ q : Fin 128, V c main_v47 (ix2 (0 : Fin 1) q) = b (ix1 q)) (t : Fin cfg1.N) :
    (dat1 V c).flushed 4 t = ((cfg1.win 4).blk t).view.read (Elt Ideal) (comb (V c main_v46) (V c main_v34) (V c main_v17) b) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  have ha : win1_4.index t (0 : Fin 2) * 5000 + p.val < 50000 := by have := p.isLt; omega
  have hemb : ((cfg1.win 4).blk t).view.emb (ix2 p q) = ix2 (⟨win1_4.index t (0 : Fin 2) * 5000 + p.val, ha⟩ : Fin 50000) q := by
    refine funext fun a => Fin.ext ?_
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  have r0 : iblk1 V c 0 t (ix2 p q) = V c main_v46 (ix2 (⟨win1_4.index t (0 : Fin 2) * 5000 + p.val, ha⟩ : Fin 50000) q) := by
    show V c main_v46 (((cfg1.win 0).blk t).view.emb (ix2 p q)) = _
    refine congrArg _ (funext fun a => Fin.ext ?_)
    match a with
    | ⟨0, _⟩ => show win1_0.index t (0 : Fin 2) * 5000 + 1 * p.val = win1_4.index t (0 : Fin 2) * 5000 + p.val; omega
    | ⟨1, _⟩ => show win1_0.index t (1 : Fin 2) * 128 + 1 * q.val = q.val; omega
  have r1 : iblk1 V c 1 t (ix2 p q) = V c main_v34 (ix2 (⟨win1_4.index t (0 : Fin 2) * 5000 + p.val, ha⟩ : Fin 50000) q) := by
    show V c main_v34 (((cfg1.win 1).blk t).view.emb (ix2 p q)) = _
    refine congrArg _ (funext fun a => Fin.ext ?_)
    match a with
    | ⟨0, _⟩ => show win1_1.index t (0 : Fin 2) * 5000 + 1 * p.val = win1_4.index t (0 : Fin 2) * 5000 + p.val; omega
    | ⟨1, _⟩ => show win1_1.index t (1 : Fin 2) * 128 + 1 * q.val = q.val; omega
  have r2 : iblk1 V c 2 t (ix2 p (0 : Fin 1)) = V c main_v17 (ix2 (⟨win1_4.index t (0 : Fin 2) * 5000 + p.val, ha⟩ : Fin 50000) (0 : Fin 1)) := by
    show V c main_v17 (((cfg1.win 2).blk t).view.emb (ix2 p (0 : Fin 1))) = _
    refine congrArg _ (funext fun a => Fin.ext ?_)
    match a with
    | ⟨0, _⟩ => show win1_2.index t (0 : Fin 2) * 5000 + 1 * p.val = win1_4.index t (0 : Fin 2) * 5000 + p.val; omega
    | ⟨1, _⟩ => show win1_2.index t (1 : Fin 2) * 1 + 1 * (0 : Fin 1).val = (0 : Fin 1).val; omega
  have r3 : iblk1 V c 3 t (ix2 (0 : Fin 1) q) = V c main_v47 (ix2 (0 : Fin 1) q) := by
    show V c main_v47 (((cfg1.win 3).blk t).view.emb (ix2 (0 : Fin 1) q)) = _
    refine congrArg _ (funext fun a => Fin.ext ?_)
    match a with
    | ⟨0, _⟩ => show win1_3.index t (0 : Fin 2) * 1 + 1 * (0 : Fin 1).val = (0 : Fin 1).val; omega
    | ⟨1, _⟩ => show win1_3.index t (1 : Fin 2) * 128 + 1 * q.val = q.val; omega

  refine (pay_at (iblk1 V c 0 t) (iblk1 V c 1 t) (iblk1 V c 2 t) (iblk1 V c 3 t) p q).trans ?_
  show _ = comb (V c main_v46) (V c main_v34) (V c main_v17) b (((cfg1.win 4).blk t).view.emb (ix2 p q))
  rw [hemb, comb_apply, r0, r1, r2, r3, hb]

/-- An index of the output array is in point `t`'s block iff each coordinate is in the block's range. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- Every row is in some point's block: row `r` in block `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The region's output array after the region: the combination of the arrays the region found. -/
theorem final (b : FVec Ideal SD .f32) (c : Dev nD) (hb : ∀ q : Fin 128, V c main_v47 (ix2 (0 : Fin 1) q) = b (ix1 q)) :
    (dat1 V c).arrAt 4 cfg1.N = comb (V c main_v46) (V c main_v34) (V c main_v17) b :=
  (dat1 V c).arrAt_eq_of_cover 4 _ (fun t _ => flushed_eq V b c hb t) cover

end Cert.KernelIdeal.Comb1

end
-- ==== Proof.Comb3.lean ====
/-
  Region 3 of the idealized kernel program: the combination that ends a layer, ten row blocks of 5000 rows each.
  At a grid point the body loads a block of the neighbourhood sums `A`, of the layer's linear output `H`, of the
  self-loop scale `D` (one column), of the residual `R` and the bias row, and stores the leaky rectifier of
  `R + A + H · D + b`, the column and the row spread over the block. Entry (p, q) of the block depends on row
  `5000 · block + p` of the arrays only; the ten blocks cover every row; so the region's output array is that
  combination of the whole arrays, entry by entry.
-/
import proofs.«105951_j5961414607307_2_alg».proof.Proof.Gen.KernelIdeal.Frame
import proofs.«105951_j5961414607307_2_alg».proof.Proof.Whole
import Idealize.ShloMosaic.Lib.Pipeline.Value
import Idealize.ShloMosaic.Lib.ValueIdx

set_option maxRecDepth 16384

noncomputable section

namespace Cert.KernelIdeal.Comb3

open Cert.KernelIdeal Cert.KernelIdeal.Gen Cert.Whole Cert.HostPart
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the loaded blocks: the column is read at the entry's row, the bias row at
    the entry's column. -/
theorem pay_at (x4 x0 x1 : Vec Ideal S5000x128 .f32) (x2 : Vec Ideal S5000x1 .f32) (x3 : Vec Ideal S1x128 .f32) (p : Fin 5000) (q : Fin 128) :
    k3_pay1 x4 x0 x1 x2 x3 (ix2 p q) = leaky (x4 (ix2 p q) + x0 (ix2 p q) + x1 (ix2 p q) * x2 (ix2 p (0 : Fin 1)) + x3 (ix2 (0 : Fin 1) q)) := by
  have hD : broadcastTo S5000x128 x2 Facts₀.broadcasts_S5000x1_S5000x128 (ix2 p q) = x2 (ix2 p (0 : Fin 1)) :=
    broadcastTo_apply x2 _ (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  have hB : broadcastTo S5000x128 x3 Facts₀.broadcasts_S1x128_S5000x128 (ix2 p q) = x3 (ix2 (0 : Fin 1) q) :=
    broadcastTo_apply x3 _ (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])
  unfold k3_pay1 leaky
  simp only [shapeCast_self, select_apply, cmpf_apply, mulf_apply, addf_apply, broadcast_apply, hD, hB]
  rfl

/-- The printed index maps over the ten grid points: every row-blocked window sits at the output's row block, column
    block 0; the bias window is the whole row. -/
theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = win3_5.index t (0 : Fin 2)
    ∧ win3_2.index t (1 : Fin 2) = 0
    ∧ win3_3.index t (0 : Fin 2) = 0
    ∧ win3_3.index t (1 : Fin 2) = 0
    ∧ win3_4.index t (0 : Fin 2) = win3_5.index t (0 : Fin 2)
    ∧ win3_4.index t (1 : Fin 2) = 0
    ∧ win3_5.index t (1 : Fin 2) = 0
    ∧ win3_5.index t (0 : Fin 2) ≤ 9 :=
  (by decide +kernel : ∀ t : Fin grid3.N, _)

/-- Every row block is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

set_option maxHeartbeats 2000000 in
/-- What point `t` writes back is block `t` of the combination of the whole arrays; `b` is the bias as a vector,
    which the bias window's one-row array holds (`hb`). -/
theorem flushed_eq (b : FVec Ideal SD .f32) (c : Dev nD) (hb : ∀ q : Fin 128, V c main_v62 (ix2 (0 : Fin 1) q) = b (ix1 q)) (t : Fin cfg3.N) :
    (dat3 V c).flushed 5 t = ((cfg3.win 5).blk t).view.read (Elt Ideal) (combR (V c main_v61) (V c main_v49) (V c main_v17) b (V c main_v48)) := by
  show (cfg3.win 5).cut (grid3.coords t) ((dat3 V c).after 5 t) = _
  rw [after3_5]
  unfold out3_5
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  have ha : win3_5.index t (0 : Fin 2) * 5000 + p.val < 50000 := by have := p.isLt; omega
  have hemb : ((cfg3.win 5).blk t).view.emb (ix2 p q) = ix2 (⟨win3_5.index t (0 : Fin 2) * 5000 + p.val, ha⟩ : Fin 50000) q := by
    refine funext fun a => Fin.ext ?_
    match a with
    | ⟨0, _⟩ => show win3_5.index t (0 : Fin 2) * 5000 + 1 * p.val = win3_5.index t (0 : Fin 2) * 5000 + p.val; omega
    | ⟨1, _⟩ => show win3_5.index t (1 : Fin 2) * 128 + 1 * q.val = q.val; omega
  have r0 : iblk3 V c 0 t (ix2 p q) = V c main_v61 (ix2 (⟨win3_5.index t (0 : Fin 2) * 5000 + p.val, ha⟩ : Fin 50000) q) := by
    show V c main_v61 (((cfg3.win 0).blk t).view.emb (ix2 p q)) = _
    refine congrArg _ (funext fun a => Fin.ext ?_)
    match a with
    | ⟨0, _⟩ => show win3_0.index t (0 : Fin 2) * 5000 + 1 * p.val = win3_5.index t (0 : Fin 2) * 5000 + p.val; omega
    | ⟨1, _⟩ => show win3_0.index t (1 : Fin 2) * 128 + 1 * q.val = q.val; omega
  have r1 : iblk3 V c 1 t (ix2 p q) = V c main_v49 (ix2 (⟨win3_5.index t (0 : Fin 2) * 5000 + p.val, ha⟩ : Fin 50000) q) := by
    show V c main_v49 (((cfg3.win 1).blk t).view.emb (ix2 p q)) = _
    refine congrArg _ (funext fun a => Fin.ext ?_)
    match a with
    | ⟨0, _⟩ => show win3_1.index t (0 : Fin 2) * 5000 + 1 * p.val = win3_5.index t (0 : Fin 2) * 5000 + p.val; omega
    | ⟨1, _⟩ => show win3_1.index t (1 : Fin 2) * 128 + 1 * q.val = q.val; omega
  have r2 : iblk3 V c 2 t (ix2 p (0 : Fin 1)) = V c main_v17 (ix2 (⟨win3_5.index t (0 : Fin 2) * 5000 + p.val, ha⟩ : Fin 50000) (0 : Fin 1)) := by
    show V c main_v17 (((cfg3.win 2).blk t).view.emb (ix2 p (0 : Fin 1))) = _
    refine congrArg _ (funext fun a => Fin.ext ?_)
    match a with
    | ⟨0, _⟩ => show win3_2.index t (0 : Fin 2) * 5000 + 1 * p.val = win3_5.index t (0 : Fin 2) * 5000 + p.val; omega
    | ⟨1, _⟩ => show win3_2.index t (1 : Fin 2) * 1 + 1 * (0 : Fin 1).val = (0 : Fin 1).val; omega
  have r3 : iblk3 V c 3 t (ix2 (0 : Fin 1) q) = V c main_v62 (ix2 (0 : Fin 1) q) := by
    show V c main_v62 (((cfg3.win 3).blk t).view.emb (ix2 (0 : Fin 1) q)) = _
    refine congrArg _ (funext fun a => Fin.ext ?_)
    match a with
    | ⟨0, _⟩ => show win3_3.index t (0 : Fin 2) * 1 + 1 * (0 : Fin 1).val = (0 : Fin 1).val; omega
    | ⟨1, _⟩ => show win3_3.index t (1 : Fin 2) * 128 + 1 * q.val = q.val; omega
  have r4 : iblk3 V c 4 t (ix2 p q) = V c main_v48 (ix2 (⟨win3_5.index t (0 : Fin 2) * 5000 + p.val, ha⟩ : Fin 50000) q) := by
    show V c main_v48 (((cfg3.win 4).blk t).view.emb (ix2 p q)) = _
    refine congrArg _ (funext fun a => Fin.ext ?_)
    match a with
    | ⟨0, _⟩ => show win3_4.index t (0 : Fin 2) * 5000 + 1 * p.val = win3_5.index t (0 : Fin 2) * 5000 + p.val; omega
    | ⟨1, _⟩ => show win3_4.index t (1 : Fin 2) * 128 + 1 * q.val = q.val; omega
  refine (pay_at (iblk3 V c 4 t) (iblk3 V c 0 t) (iblk3 V c 1 t) (iblk3 V c 2 t) (iblk3 V c 3 t) p q).trans ?_
  show _ = combR (V c main_v61) (V c main_v49) (V c main_v17) b (V c main_v48) (((cfg3.win 5).blk t).view.emb (ix2 p q))
  rw [hemb, combR_apply, r0, r1, r2, r3, r4, hb]

/-- An index of the output array is in point `t`'s block iff each coordinate is in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v63).slice (win3_5.rect t)).set ↔ _
  rw [View.set_slice_whole, Rect.mem_set_unit]
  exact Iff.rfl

/-- Every row is in some point's block: row `r` in block `r / 5000`. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The region's output array after the region: the combination of the arrays the region found. -/
theorem final (b : FVec Ideal SD .f32) (c : Dev nD) (hb : ∀ q : Fin 128, V c main_v62 (ix2 (0 : Fin 1) q) = b (ix1 q)) :
    (dat3 V c).arrAt 5 cfg3.N = combR (V c main_v61) (V c main_v49) (V c main_v17) b (V c main_v48) :=
  (dat3 V c).arrAt_eq_of_cover 5 _ (fun t _ => flushed_eq V b c hb t) cover

end Cert.KernelIdeal.Comb3

end
-- ==== Proof.Comb5.lean ====
/-
  Region 5 of the idealized kernel program: the combination that ends a layer, ten row blocks of 5000 rows each.
  At a grid point the body loads a block of the neighbourhood sums `A`, of the layer's linear output `H`, of the
  self-loop scale `D` (one column), of the residual `R` and the bias row, and stores the leaky rectifier of
  `R + A + H · D + b`, the column and the row spread over the block. Entry (p, q) of the block depends on row
  `5000 · block + p` of the arrays only; the ten blocks cover every row; so the region's output array is that
  combination of the whole arrays, entry by entry.
-/
import proofs.«105951_j5961414607307_2_alg».proof.Proof.Gen.KernelIdeal.Frame
import proofs.«105951_j5961414607307_2_alg».proof.Proof.Whole
import Idealize.ShloMosaic.Lib.Pipeline.Value
import Idealize.ShloMosaic.Lib.ValueIdx

set_option maxRecDepth 16384

noncomputable section

namespace Cert.KernelIdeal.Comb5

open Cert.KernelIdeal Cert.KernelIdeal.Gen Cert.Whole Cert.HostPart
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of what the body stores, from the loaded blocks: the column is read at the entry's row, the bias row at
    the entry's column. -/
theorem pay_at (x4 x0 x1 : Vec Ideal S5000x128 .f32) (x2 : Vec Ideal S5000x1 .f32) (x3 : Vec Ideal S1x128 .f32) (p : Fin 5000) (q : Fin 128) :
    k5_pay1 x4 x0 x1 x2 x3 (ix2 p q) = leaky (x4 (ix2 p q) + x0 (ix2 p q) + x1 (ix2 p q) * x2 (ix2 p (0 : Fin 1)) + x3 (ix2 (0 : Fin 1) q)) := by
  have hD : broadcastTo S5000x128 x2 Facts₀.broadcasts_S5000x1_S5000x128 (ix2 p q) = x2 (ix2 p (0 : Fin 1)) :=
    broadcastTo_apply x2 _ (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  have hB : broadcastTo S5000x128 x3 Facts₀.broadcasts_S1x128_S5000x128 (ix2 p q) = x3 (ix2 (0 : Fin 1) q) :=
    broadcastTo_apply x3 _ (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])
  unfold k5_pay1 leaky
  simp only [shapeCast_self, select_apply, cmpf_apply, mulf_apply, addf_apply, broadcast_apply, hD, hB]
  rfl

/-- The printed index maps over the ten grid points: every row-blocked window sits at the output's row block, column
    block 0; the bias window is the whole row. -/
theorem idx_facts : ∀ t : Fin cfg5.N, win5_0.index t (0 : Fin 2) = win5_5.index t (0 : Fin 2)
    ∧ win5_0.index t (1 : Fin 2) = 0
    ∧ win5_1.index t (0 : Fin 2) = win5_5.index t (0 : Fin 2)
    ∧ win5_1.index t (1 : Fin 2) = 0
    ∧ win5_2.index t (0 : Fin 2) = win5_5.index t (0 : Fin 2)
    ∧ win5_2.index t (1 : Fin 2) = 0
    ∧ win5_3.index t (0 : Fin 2) = 0
    ∧ win5_3.index t (1 : Fin 2) = 0
    ∧ win5_4.index t (0 : Fin 2) = win5_5.index t (0 : Fin 2)
    ∧ win5_4.index t (1 : Fin 2) = 0
    ∧ win5_5.index t (1 : Fin 2) = 0
    ∧ win5_5.index t (0 : Fin 2) ≤ 9 :=
  (by decide +kernel : ∀ t : Fin grid5.N, _)

/-- Every row block is some point's. -/
theorem idx_onto : ∀ q0 : Fin 10, ∃ t : Fin cfg5.N, win5_5.index t = ![q0.val, 0] :=
  (by decide +kernel : ∀ q0 : Fin 10, ∃ t : Fin grid5.N, win5_5.index t = ![q0.val, 0])

set_option maxHeartbeats 2000000 in
/-- What point `t` writes back is block `t` of the combination of the whole arrays; `b` is the bias as a vector,
    which the bias window's one-row array holds (`hb`). -/
theorem flushed_eq (b : FVec Ideal SD .f32) (c : Dev nD) (hb : ∀ q : Fin 128, V c main_v77 (ix2 (0 : Fin 1) q) = b (ix1 q)) (t : Fin cfg5.N) :
    (dat5 V c).flushed 5 t = ((cfg5.win 5).blk t).view.read (Elt Ideal) (combR (V c main_v76) (V c main_v64) (V c main_v17) b (V c main_v63)) := by
  show (cfg5.win 5).cut (grid5.coords t) ((dat5 V c).after 5 t) = _
  rw [after5_5]
  unfold out5_5
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  have ha : win5_5.index t (0 : Fin 2) * 5000 + p.val < 50000 := by have := p.isLt; omega
  have hemb : ((cfg5.win 5).blk t).view.emb (ix2 p q) = ix2 (⟨win5_5.index t (0 : Fin 2) * 5000 + p.val, ha⟩ : Fin 50000) q := by
    refine funext fun a => Fin.ext ?_
    match a with
    | ⟨0, _⟩ => show win5_5.index t (0 : Fin 2) * 5000 + 1 * p.val = win5_5.index t (0 : Fin 2) * 5000 + p.val; omega
    | ⟨1, _⟩ => show win5_5.index t (1 : Fin 2) * 128 + 1 * q.val = q.val; omega
  have r0 : iblk5 V c 0 t (ix2 p q) = V c main_v76 (ix2 (⟨win5_5.index t (0 : Fin 2) * 5000 + p.val, ha⟩ : Fin 50000) q) := by
    show V c main_v76 (((cfg5.win 0).blk t).view.emb (ix2 p q)) = _
    refine congrArg _ (funext fun a => Fin.ext ?_)
    match a with
    | ⟨0, _⟩ => show win5_0.index t (0 : Fin 2) * 5000 + 1 * p.val = win5_5.index t (0 : Fin 2) * 5000 + p.val; omega
    | ⟨1, _⟩ => show win5_0.index t (1 : Fin 2) * 128 + 1 * q.val = q.val; omega
  have r1 : iblk5 V c 1 t (ix2 p q) = V c main_v64 (ix2 (⟨win5_5.index t (0 : Fin 2) * 5000 + p.val, ha⟩ : Fin 50000) q) := by
    show V c main_v64 (((cfg5.win 1).blk t).view.emb (ix2 p q)) = _
    refine congrArg _ (funext fun a => Fin.ext ?_)
    match a with
    | ⟨0, _⟩ => show win5_1.index t (0 : Fin 2) * 5000 + 1 * p.val = win5_5.index t (0 : Fin 2) * 5000 + p.val; omega
    | ⟨1, _⟩ => show win5_1.index t (1 : Fin 2) * 128 + 1 * q.val = q.val; omega
  have r2 : iblk5 V c 2 t (ix2 p (0 : Fin 1)) = V c main_v17 (ix2 (⟨win5_5.index t (0 : Fin 2) * 5000 + p.val, ha⟩ : Fin 50000) (0 : Fin 1)) := by
    show V c main_v17 (((cfg5.win 2).blk t).view.emb (ix2 p (0 : Fin 1))) = _
    refine congrArg _ (funext fun a => Fin.ext ?_)
    match a with
    | ⟨0, _⟩ => show win5_2.index t (0 : Fin 2) * 5000 + 1 * p.val = win5_5.index t (0 : Fin 2) * 5000 + p.val; omega
    | ⟨1, _⟩ => show win5_2.index t (1 : Fin 2) * 1 + 1 * (0 : Fin 1).val = (0 : Fin 1).val; omega
  have r3 : iblk5 V c 3 t (ix2 (0 : Fin 1) q) = V c main_v77 (ix2 (0 : Fin 1) q) := by
    show V c main_v77 (((cfg5.win 3).blk t).view.emb (ix2 (0 : Fin 1) q)) = _
    refine congrArg _ (funext fun a => Fin.ext ?_)
    match a with
    | ⟨0, _⟩ => show win5_3.index t (0 : Fin 2) * 1 + 1 * (0 : Fin 1).val = (0 : Fin 1).val; omega
    | ⟨1, _⟩ => show win5_3.index t (1 : Fin 2) * 128 + 1 * q.val = q.val; omega
  have r4 : iblk5 V c 4 t (ix2 p q) = V c main_v63 (ix2 (⟨win5_5.index t (0 : Fin 2) * 5000 + p.val, ha⟩ : Fin 50000) q) := by
    show V c main_v63 (((cfg5.win 4).blk t).view.emb (ix2 p q)) = _
    refine congrArg _ (funext fun a => Fin.ext ?_)
    match a with
    | ⟨0, _⟩ => show win5_4.index t (0 : Fin 2) * 5000 + 1 * p.val = win5_5.index t (0 : Fin 2) * 5000 + p.val; omega
    | ⟨1, _⟩ => show win5_4.index t (1 : Fin 2) * 128 + 1 * q.val = q.val; omega
  refine (pay_at (iblk5 V c 4 t) (iblk5 V c 0 t) (iblk5 V c 1 t) (iblk5 V c 2 t) (iblk5 V c 3 t) p q).trans ?_
  show _ = combR (V c main_v76) (V c main_v64) (V c main_v17) b (V c main_v63) (((cfg5.win 5).blk t).view.emb (ix2 p q))
  rw [hemb, combR_apply, r0, r1, r2, r3, r4, hb]

/-- An index of the output array is in point `t`'s block iff each coordinate is in the block's range. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v78).slice (win5_5.rect t)).set ↔ _
  rw [View.set_slice_whole, Rect.mem_set_unit]
  exact Iff.rfl

/-- Every row is in some point's block: row `r` in block `r / 5000`. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := idx_onto ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The region's output array after the region: the combination of the arrays the region found. -/
theorem final (b : FVec Ideal SD .f32) (c : Dev nD) (hb : ∀ q : Fin 128, V c main_v77 (ix2 (0 : Fin 1) q) = b (ix1 q)) :
    (dat5 V c).arrAt 5 cfg5.N = combR (V c main_v76) (V c main_v64) (V c main_v17) b (V c main_v63) :=
  (dat5 V c).arrAt_eq_of_cover 5 _ (fun t _ => flushed_eq V b c hb t) cover

end Cert.KernelIdeal.Comb5

end
-- ==== Proof.KVal.lean ====
/-
  The idealized kernel program's result as a function of its arguments, boundary by boundary. Per layer the host
  computes the neighbourhood sum of the layer's linear output; the regions compute the linear outputs (a product with
  the layer's weights, row block by row block) and the combinations (the rectifier of the sum of neighbourhood sum,
  scaled self loop, bias and, from the second layer on, the layer's input). Followed through the boundaries: the first
  layer's output is `layer1`, the next two are `layerR` of the layer before, and the result buffer ends at the
  projection of the third: `net` of the arguments.
-/
import proofs.«105951_j5961414607307_2_alg».proof.Proof.Keep
import proofs.«105951_j5961414607307_2_alg».proof.Proof.Lin0
import proofs.«105951_j5961414607307_2_alg».proof.Proof.Lin2
import proofs.«105951_j5961414607307_2_alg».proof.Proof.Lin4
import proofs.«105951_j5961414607307_2_alg».proof.Proof.Comb1
import proofs.«105951_j5961414607307_2_alg».proof.Proof.Comb3
import proofs.«105951_j5961414607307_2_alg».proof.Proof.Comb5
import Idealize.ShloMosaic.Lib.StableHlo.Run
import Idealize.ShloMosaic.Lib.ValueLayout

set_option maxRecDepth 16384

noncomputable section

namespace Cert.KernelIdeal.Chain

open Cert.KernelIdeal Cert.KernelIdeal.Gen Cert.Whole Cert.HostPart
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD) (w : PlainWF)

/-! ## Layer 1 -/

/-- Region 0 leaves the first linear output: the product of the node features with the first weights. -/
theorem W2_v34 : W2 m ρ c (Proc.devRef .tc main_v34) = (prod w (m ((c : Thread nD τ).loc main_arg0)) (m ((c : Thread nD τ).loc main_arg2))) :=
  (W2_arr m ρ c 2).trans ((Lin0.final (V1 m ρ) w c).trans (by
    show prod w (W1 m ρ c (Proc.devRef .tc main_arg0)) (W1 m ρ c (Proc.devRef .tc main_arg2)) = _
    rw [W1_arg0, W1_arg2]))

/-- After `hostOps1`: the neighbourhood sum of the layer's linear output. -/
theorem W3_v46 :
    W3 m ρ c (Proc.devRef .tc main_v46) = agg (F := Ideal) hostRecs (m ((c : Thread nD τ).loc main_arg1)) (prod w (m ((c : Thread nD τ).loc main_arg0)) (m ((c : Thread nD τ).loc main_arg2))) := by
  show StableHlo.after hostOps1 (W2 m ρ c) (Proc.devRef .tc main_v46) = _
  dsimp only [hostOps1]
  after_results_simp
  rw [(keeps2 m ρ c (keeps1 m ρ c)).s, (keeps2 m ρ c (keeps1 m ρ c)).t, (keeps2 m ρ c (keeps1 m ρ c)).es, W2_v34 m ρ c w]
  rfl

theorem W3_v34 : W3 m ρ c (Proc.devRef .tc main_v34) = (prod w (m ((c : Thread nD τ).loc main_arg0)) (m ((c : Thread nD τ).loc main_arg2))) := by
  show StableHlo.after hostOps1 (W2 m ρ c) (Proc.devRef .tc main_v34) = _
  dsimp only [hostOps1]
  after_results_simp
  exact W2_v34 m ρ c w

/-- The bias as the one-row array the region reads: row 0, column `q` is the bias at `q`. -/
theorem W3_v47 (q : Fin 128) : W3 m ρ c (Proc.devRef .tc main_v47) (ix2 (0 : Fin 1) q) = (m ((c : Thread nD τ).loc main_arg3)) (ix1 q) := by
  have e : W3 m ρ c (Proc.devRef .tc main_v47) = shapeCast S1x128 (W2 m ρ c (Proc.devRef .tc main_arg3)) Facts₀.shapeCasts_S128_S1x128 := by
    show StableHlo.after hostOps1 (W2 m ρ c) (Proc.devRef .tc main_v47) = _
    dsimp only [hostOps1]
    after_results_simp
    rfl
  rw [e, (keeps2 m ρ c (keeps1 m ρ c)).a3]
  exact shapeCast_a_1a_apply _ _ (0 : Fin 1) q

/-- Region 1 leaves the first layer's output. -/
theorem W4_v48 : W4 m ρ c (Proc.devRef .tc main_v48) = (layer1 hostRecs w (m ((c : Thread nD τ).loc main_arg0)) (m ((c : Thread nD τ).loc main_arg1)) (m ((c : Thread nD τ).loc main_arg2)) (m ((c : Thread nD τ).loc main_arg3))) :=
  (W4_arr m ρ c 4).trans ((Comb1.final (V3 m ρ) (m ((c : Thread nD τ).loc main_arg3)) c (W3_v47 m ρ c)).trans (by
    show comb (W3 m ρ c (Proc.devRef .tc main_v46)) (W3 m ρ c (Proc.devRef .tc main_v34)) (W3 m ρ c (Proc.devRef .tc main_v17)) (m ((c : Thread nD τ).loc main_arg3)) = _
    rw [W3_v46 m ρ c w, W3_v34 m ρ c w, (keeps3 m ρ c (keeps2 m ρ c (keeps1 m ρ c))).ss]
    rfl))

/-! ## Layer 2 -/

/-- Region 2 leaves the second linear output. -/
theorem W5_v49 : W5 m ρ c (Proc.devRef .tc main_v49) = (prod w (layer1 hostRecs w (m ((c : Thread nD τ).loc main_arg0)) (m ((c : Thread nD τ).loc main_arg1)) (m ((c : Thread nD τ).loc main_arg2)) (m ((c : Thread nD τ).loc main_arg3))) (m ((c : Thread nD τ).loc main_arg4))) :=
  (W5_arr m ρ c 2).trans ((Lin2.final (V4 m ρ) w c).trans (by
    show prod w (W4 m ρ c (Proc.devRef .tc main_v48)) (W4 m ρ c (Proc.devRef .tc main_arg4)) = _
    rw [W4_v48 m ρ c w, ((keeps4 m ρ c (keeps3 m ρ c (keeps2 m ρ c (keeps1 m ρ c))))).a4]))

/-- Region 2 reads this array through an input window and leaves it as found. -/
theorem W5_v48 : W5 m ρ c (Proc.devRef .tc main_v48) = (layer1 hostRecs w (m ((c : Thread nD τ).loc main_arg0)) (m ((c : Thread nD τ).loc main_arg1)) (m ((c : Thread nD τ).loc main_arg2)) (m ((c : Thread nD τ).loc main_arg3))) :=
  (W5_arr m ρ c 0).trans ((((dat2 (V4 m ρ) c).arrAt_in 0 rfl _).trans (A_eq2 (V4 m ρ) c 0)).trans (W4_v48 m ρ c w))

/-- After `hostOps3`: the neighbourhood sum of the layer's linear output. -/
theorem W6_v61 : W6 m ρ c (Proc.devRef .tc main_v61) = agg (F := Ideal) hostRecs (m ((c : Thread nD τ).loc main_arg1)) (prod w (layer1 hostRecs w (m ((c : Thread nD τ).loc main_arg0)) (m ((c : Thread nD τ).loc main_arg1)) (m ((c : Thread nD τ).loc main_arg2)) (m ((c : Thread nD τ).loc main_arg3))) (m ((c : Thread nD τ).loc main_arg4))) := by
  show StableHlo.after hostOps3 (W5 m ρ c) (Proc.devRef .tc main_v61) = _
  dsimp only [hostOps3]
  after_results_simp
  rw [((keeps5 m ρ c (keeps4 m ρ c (keeps3 m ρ c (keeps2 m ρ c (keeps1 m ρ c)))))).s, ((keeps5 m ρ c (keeps4 m ρ c (keeps3 m ρ c (keeps2 m ρ c (keeps1 m ρ c)))))).t, ((keeps5 m ρ c (keeps4 m ρ c (keeps3 m ρ c (keeps2 m ρ c (keeps1 m ρ c)))))).es, W5_v49 m ρ c w]
  rfl

theorem W6_v49 : W6 m ρ c (Proc.devRef .tc main_v49) = (prod w (layer1 hostRecs w (m ((c : Thread nD τ).loc main_arg0)) (m ((c : Thread nD τ).loc main_arg1)) (m ((c : Thread nD τ).loc main_arg2)) (m ((c : Thread nD τ).loc main_arg3))) (m ((c : Thread nD τ).loc main_arg4))) := by
  show StableHlo.after hostOps3 (W5 m ρ c) (Proc.devRef .tc main_v49) = _
  dsimp only [hostOps3]
  after_results_simp
  exact W5_v49 m ρ c w

theorem W6_v48 : W6 m ρ c (Proc.devRef .tc main_v48) = (layer1 hostRecs w (m ((c : Thread nD τ).loc main_arg0)) (m ((c : Thread nD τ).loc main_arg1)) (m ((c : Thread nD τ).loc main_arg2)) (m ((c : Thread nD τ).loc main_arg3))) := by
  show StableHlo.after hostOps3 (W5 m ρ c) (Proc.devRef .tc main_v48) = _
  dsimp only [hostOps3]
  after_results_simp
  exact W5_v48 m ρ c w

/-- The bias as the one-row array the region reads: row 0, column `q` is the bias at `q`. -/
theorem W6_v62 (q : Fin 128) : W6 m ρ c (Proc.devRef .tc main_v62) (ix2 (0 : Fin 1) q) = (m ((c : Thread nD τ).loc main_arg5)) (ix1 q) := by
  have e : W6 m ρ c (Proc.devRef .tc main_v62) = shapeCast S1x128 (W5 m ρ c (Proc.devRef .tc main_arg5)) Facts₀.shapeCasts_S128_S1x128 := by
    show StableHlo.after hostOps3 (W5 m ρ c) (Proc.devRef .tc main_v62) = _
    dsimp only [hostOps3]
    after_results_simp
    rfl
  rw [e, ((keeps5 m ρ c (keeps4 m ρ c (keeps3 m ρ c (keeps2 m ρ c (keeps1 m ρ c)))))).a5]
  exact shapeCast_a_1a_apply _ _ (0 : Fin 1) q

/-- Region 3 leaves the second layer's output. -/
theorem W7_v63 : W7 m ρ c (Proc.devRef .tc main_v63) = (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  (W7_arr m ρ c 5).trans ((Comb3.final (V6 m ρ) (m ((c : Thread nD τ).loc main_arg5)) c (W6_v62 m ρ c)).trans (by
    show combR (W6 m ρ c (Proc.devRef .tc main_v61)) (W6 m ρ c (Proc.devRef .tc main_v49)) (W6 m ρ c (Proc.devRef .tc main_v17)) (m ((c : Thread nD τ).loc main_arg5)) (W6 m ρ c (Proc.devRef .tc main_v48)) = _
    rw [W6_v61 m ρ c w, W6_v49 m ρ c w, ((keeps6 m ρ c (keeps5 m ρ c (keeps4 m ρ c (keeps3 m ρ c (keeps2 m ρ c (keeps1 m ρ c))))))).ss, W6_v48 m ρ c w]
    rfl))

/-! ## Layer 3 -/

/-- Region 4 leaves the third linear output. -/
theorem W8_v64 : W8 m ρ c (Proc.devRef .tc main_v64) = (prod w (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) :=
  (W8_arr m ρ c 2).trans ((Lin4.final (V7 m ρ) w c).trans (by
    show prod w (W7 m ρ c (Proc.devRef .tc main_v63)) (W7 m ρ c (Proc.devRef .tc main_arg6)) = _
    rw [W7_v63 m ρ c w, ((keeps7 m ρ c (keeps6 m ρ c (keeps5 m ρ c (keeps4 m ρ c (keeps3 m ρ c (keeps2 m ρ c (keeps1 m ρ c)))))))).a6]))

/-- Region 4 reads this array through an input window and leaves it as found. -/
theorem W8_v63 : W8 m ρ c (Proc.devRef .tc main_v63) = (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  (W8_arr m ρ c 0).trans ((((dat4 (V7 m ρ) c).arrAt_in 0 rfl _).trans (A_eq4 (V7 m ρ) c 0)).trans (W7_v63 m ρ c w))

/-- After `hostOps5`: the neighbourhood sum of the layer's linear output. -/
theorem W9_v76 : W9 m ρ c (Proc.devRef .tc main_v76) = agg (F := Ideal) hostRecs (m ((c : Thread nD τ).loc main_arg1)) (prod w (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) := by
  show StableHlo.after hostOps5 (W8 m ρ c) (Proc.devRef .tc main_v76) = _
  dsimp only [hostOps5]
  after_results_simp
  rw [((keeps8 m ρ c (keeps7 m ρ c (keeps6 m ρ c (keeps5 m ρ c (keeps4 m ρ c (keeps3 m ρ c (keeps2 m ρ c (keeps1 m ρ c))))))))).s, ((keeps8 m ρ c (keeps7 m ρ c (keeps6 m ρ c (keeps5 m ρ c (keeps4 m ρ c (keeps3 m ρ c (keeps2 m ρ c (keeps1 m ρ c))))))))).t, ((keeps8 m ρ c (keeps7 m ρ c (keeps6 m ρ c (keeps5 m ρ c (keeps4 m ρ c (keeps3 m ρ c (keeps2 m ρ c (keeps1 m ρ c))))))))).es, W8_v64 m ρ c w]
  rfl

theorem W9_v64 : W9 m ρ c (Proc.devRef .tc main_v64) = (prod w (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) := by
  show StableHlo.after hostOps5 (W8 m ρ c) (Proc.devRef .tc main_v64) = _
  dsimp only [hostOps5]
  after_results_simp
  exact W8_v64 m ρ c w

theorem W9_v63 : W9 m ρ c (Proc.devRef .tc main_v63) = (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) := by
  show StableHlo.after hostOps5 (W8 m ρ c) (Proc.devRef .tc main_v63) = _
  dsimp only [hostOps5]
  after_results_simp
  exact W8_v63 m ρ c w

/-- The bias as the one-row array the region reads: row 0, column `q` is the bias at `q`. -/
theorem W9_v77 (q : Fin 128) : W9 m ρ c (Proc.devRef .tc main_v77) (ix2 (0 : Fin 1) q) = (m ((c : Thread nD τ).loc main_arg7)) (ix1 q) := by
  have e : W9 m ρ c (Proc.devRef .tc main_v77) = shapeCast S1x128 (W8 m ρ c (Proc.devRef .tc main_arg7)) Facts₀.shapeCasts_S128_S1x128 := by
    show StableHlo.after hostOps5 (W8 m ρ c) (Proc.devRef .tc main_v77) = _
    dsimp only [hostOps5]
    after_results_simp
    rfl
  rw [e, ((keeps8 m ρ c (keeps7 m ρ c (keeps6 m ρ c (keeps5 m ρ c (keeps4 m ρ c (keeps3 m ρ c (keeps2 m ρ c (keeps1 m ρ c))))))))).a7]
  exact shapeCast_a_1a_apply _ _ (0 : Fin 1) q

/-- Region 5 leaves the third layer's output. -/
theorem W10_v78 : W10 m ρ c (Proc.devRef .tc main_v78) = (layerR hostRecs w (layerR hostRecs w (layer1 hostRecs w (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) :=
  (W10_arr m ρ c 5).trans ((Comb5.final (V9 m ρ) (m ((c : Thread nD τ).loc main_arg7)) c (W9_v77 m ρ c)).trans (by
    show combR (W9 m ρ c (Proc.devRef .tc main_v76)) (W9 m ρ c (Proc.devRef .tc main_v64)) (W9 m ρ c (Proc.devRef .tc main_v17)) (m ((c : Thread nD τ).loc main_arg7)) (W9 m ρ c (Proc.devRef .tc main_v63)) = _
    rw [W9_v76 m ρ c w, W9_v64 m ρ c w, ((keeps9 m ρ c (keeps8 m ρ c (keeps7 m ρ c (keeps6 m ρ c (keeps5 m ρ c (keeps4 m ρ c (keeps3 m ρ c (keeps2 m ρ c (keeps1 m ρ c)))))))))).ss, W9_v63 m ρ c w]
    rfl))

/-! ## The result -/

/-- At the return the result buffer holds the network of the arguments. -/
theorem W11_v83 : W11 m ρ c (Proc.devRef .tc main_v83) = net hostRecs w (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W10 m ρ c) (Proc.devRef .tc main_v83) = _
  dsimp only [hostOps6]
  after_results_simp
  rw [W10_v78 m ρ c w, ((keeps10 m ρ c (keeps9 m ρ c (keeps8 m ρ c (keeps7 m ρ c (keeps6 m ρ c (keeps5 m ρ c (keeps4 m ρ c (keeps3 m ρ c (keeps2 m ρ c (keeps1 m ρ c))))))))))).a8, ((keeps10 m ρ c (keeps9 m ρ c (keeps8 m ρ c (keeps7 m ρ c (keeps6 m ρ c (keeps5 m ρ c (keeps4 m ρ c (keeps3 m ρ c (keeps2 m ρ c (keeps1 m ρ c))))))))))).a9]
  rfl

end Cert.KernelIdeal.Chain

end
-- ==== Proof.RRecs.lean ====
/-
  The side conditions and dimension records of the shared host operations, as this program states them.
-/
import proofs.«105951_j5961414607307_2_alg».proof.Proof.Gen.ReferenceIdeal
import proofs.«105951_j5961414607307_2_alg».proof.Proof.HostPart

noncomputable section

namespace Cert.ReferenceIdeal

open Idealize.ShloMosaic

/-- This program's records for the host operations it shares with the other program. -/
def hostRecs : Cert.HostPart.HostRecs where
  sl0 := Facts₀.slices_S2x600000_S1x600000_0_0
  sl1 := Facts₀.slices_S2x600000_S1x600000_1_0
  sc1E := Facts₀.shapeCasts_S1x600000_S600000
  b0N := Facts₀.bcast_S_S50000
  b0E := Facts₀.bcast_S_S600000
  bE1 := Facts₀.bcast_S600000_S600000x1_0
  bE1D := Facts₀.bcast_S600000x1_S600000x128_0_1
  b0ND := Facts₀.bcast_S_S50000x128
  bN1 := Facts₀.bcast_S50000_S50000x1_0
  b1 := Facts₀.bcast_S1_S1x1_1
  b11N1 := Facts₀.bcast_S1x1_S50000x1_0_1
  scN1 := Facts₀.shapeCasts_S50000x1_S50000
  sc := scatter_S50000_S600000x1_S600000_n_0_0_1
  ga := gather_S50000_S600000x1_S600000_n_0_n_n_0_1_1
  gaD := gather_S50000x128_S600000x1_S600000x128_1_0_n_n_0_1_1128
  scD := scatter_S50000x128_S600000x1_S600000x128_1_0_0_1
  dotT := dot_S50000x128_S128x1_S50000x1_1_0_0_1_n_n

end Cert.ReferenceIdeal

end
-- ==== Proof.HostComb.lean ====
/-
  A layer's combination as the host spells it: whole-array operations on the neighbourhood sums `A`, the linear
  output `H`, the self-loop scale `D` (a column, broadcast along the rows) and the bias `b` (a vector, made a row
  and broadcast along the columns), then the leaky rectifier as a comparison with the zero array, a product with the
  constant array 0.2 and a select. Entry by entry this is `comb A H D b`; with the layer's input `R` added in front
  of the bracketed sum, `R + ((A + H·D) + b)`, it is `combR A H D b R`, whose sum is taken from the left: addition
  of extended reals is associative.
-/
import proofs.«105951_j5961414607307_2_alg».proof.Proof.Whole
import Idealize.ShloMosaic.Lib.Pipeline.Value
import Idealize.ShloMosaic.Lib.ValueIdx

noncomputable section

namespace Cert.Whole

open Idealize.ShloMosaic Idealize.ShloMosaic.ValueIdx Cert.HostPart

abbrev S1xD : Shape := ⟨2, ![1, 128]⟩

variable (hD : SNx1.BroadcastsInDim SNxD (![0, 1] : Fin 2 → Fin SNxD.rank))
  (hB : S1xD.BroadcastsInDim SNxD (![0, 1] : Fin 2 → Fin SNxD.rank))
  (hb : SD.BroadcastsInDim S1xD (![1] : Fin 1 → Fin S1xD.rank))
  (h0 : S0.BroadcastsInDim SNxD (![] : Fin 0 → Fin SNxD.rank))

/-- The self-loop column broadcast along the rows, read at (r, q): the column at r. -/
theorem bcastD_apply (D : FVec Ideal SNx1 .f32) (r : Fin 50000) (q : Fin 128) :
    broadcastInDim SNxD ![0, 1] hD D (ix2 r q) = D (ix2 r (0 : Fin 1)) :=
  broadcastInDim_apply _ hD D (ix2 r q) (ix2 r (0 : Fin 1)) (fun a => match a with
    | ⟨0, _⟩ => by show r.val = if (50000 : Nat) = 1 then 0 else r.val; rw [if_neg (by decide)]
    | ⟨1, _⟩ => by show (0 : Nat) = if (1 : Nat) = 1 then 0 else q.val; rw [if_pos rfl])

/-- The bias made a row and broadcast along the columns, read at (r, q): the bias at q. -/
theorem bcastB_apply (b : FVec Ideal SD .f32) (r : Fin 50000) (q : Fin 128) :
    broadcastInDim SNxD ![0, 1] hB (broadcastInDim S1xD ![1] hb b) (ix2 r q) = b (ix1 q) :=
  (broadcastInDim_apply _ hB _ (ix2 r q) (ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])).trans
  (broadcastInDim_apply _ hb b (ix2 (0 : Fin 1) q) (ix1 q) (fun a => match a with
    | ⟨0, _⟩ => by show q.val = if (128 : Nat) = 1 then 0 else q.val; rw [if_neg (by decide)]))

/-- A scalar constant broadcast to the whole array, read anywhere: the constant. -/
theorem bcast0_apply (bits : BitVec 32) (i : SNxD.Idx) :
    broadcastInDim SNxD ![] h0 (constant (F := Ideal) S0 .f32 bits) i = Ideal.ofBits .f32 bits :=
  broadcastInDim_apply _ h0 _ i ix0 (fun a => a.elim0)

/-- The first layer's combination, as the host spells it, is `comb`. -/
theorem comb_host (A H : FVec Ideal SNxD .f32) (D : FVec Ideal SNx1 .f32) (b : FVec Ideal SD .f32) :
    select (cmpf .ogt (addf (addf A (mulf H (broadcastInDim SNxD ![0, 1] hD D))) (broadcastInDim SNxD ![0, 1] hB (broadcastInDim S1xD ![1] hb b)))
        (broadcastInDim SNxD ![] h0 (constant (F := Ideal) S0 .f32 0x00000000#32)))
      (addf (addf A (mulf H (broadcastInDim SNxD ![0, 1] hD D))) (broadcastInDim SNxD ![0, 1] hB (broadcastInDim S1xD ![1] hb b)))
      (mulf (broadcastInDim SNxD ![] h0 (constant (F := Ideal) S0 .f32 0x3E4CCCCD#32))
        (addf (addf A (mulf H (broadcastInDim SNxD ![0, 1] hD D))) (broadcastInDim SNxD ![0, 1] hB (broadcastInDim S1xD ![1] hb b))))
      = comb A H D b := by
  funext i
  obtain ⟨r, q, rfl⟩ : ∃ (r : Fin 50000) (q : Fin 128), i = ix2 r q := ⟨i 0, i 1, eq_ix2 i⟩
  rw [comb_apply]
  simp only [select_apply, cmpf_apply, mulf_apply, addf_apply]
  rw [bcastD_apply hD D r q, bcastB_apply hB hb b r q, bcast0_apply h0 0x00000000#32 (ix2 r q), bcast0_apply h0 0x3E4CCCCD#32 (ix2 r q)]
  rfl

/-- A later layer's combination, as the host spells it — the layer's input added in front of the bracketed sum — is
    `combR`: the sum re-bracketed from the left. -/
theorem combR_host (A H : FVec Ideal SNxD .f32) (D : FVec Ideal SNx1 .f32) (b : FVec Ideal SD .f32) (R : FVec Ideal SNxD .f32) :
    select (cmpf .ogt (addf R (addf (addf A (mulf H (broadcastInDim SNxD ![0, 1] hD D))) (broadcastInDim SNxD ![0, 1] hB (broadcastInDim S1xD ![1] hb b))))
        (broadcastInDim SNxD ![] h0 (constant (F := Ideal) S0 .f32 0x00000000#32)))
      (addf R (addf (addf A (mulf H (broadcastInDim SNxD ![0, 1] hD D))) (broadcastInDim SNxD ![0, 1] hB (broadcastInDim S1xD ![1] hb b))))
      (mulf (broadcastInDim SNxD ![] h0 (constant (F := Ideal) S0 .f32 0x3E4CCCCD#32))
        (addf R (addf (addf A (mulf H (broadcastInDim SNxD ![0, 1] hD D))) (broadcastInDim SNxD ![0, 1] hB (broadcastInDim S1xD ![1] hb b)))))
      = combR A H D b R := by
  funext i
  obtain ⟨r, q, rfl⟩ : ∃ (r : Fin 50000) (q : Fin 128), i = ix2 r q := ⟨i 0, i 1, eq_ix2 i⟩
  rw [combR_apply]
  simp only [select_apply, cmpf_apply, mulf_apply, addf_apply]
  rw [bcastD_apply hD D r q, bcastB_apply hB hb b r q, bcast0_apply h0 0x00000000#32 (ix2 r q), bcast0_apply h0 0x3E4CCCCD#32 (ix2 r q)]
  have e : R (ix2 r q) + (A (ix2 r q) + H (ix2 r q) * D (ix2 r (0 : Fin 1)) + b (ix1 q))
      = R (ix2 r q) + A (ix2 r q) + H (ix2 r q) * D (ix2 r (0 : Fin 1)) + b (ix1 q) := by
    rw [← add_assoc, ← add_assoc]
  rw [e]
  rfl

end Cert.Whole

end
-- ==== Proof.RVal.lean ====
/-
  The idealized reference program's result as a function of its arguments. The reference is one straight line of
  host operations; read a stage at a time it is, per layer, a product with the layer's weights, the neighbourhood sum
  of the product, and the host's spelling of the combination (for the second and third layers with the layer's input
  added in front); then the projection. The shared host operations are the shared functions at this program's
  records, and the combinations are `comb` and `combR`: the result is `net` of the arguments.
-/
import proofs.«105951_j5961414607307_2_alg».proof.Proof.RefRead
import proofs.«105951_j5961414607307_2_alg».proof.Proof.RRecs
import proofs.«105951_j5961414607307_2_alg».proof.Proof.HostComb

set_option maxRecDepth 16384

noncomputable section

namespace Cert.ReferenceIdeal.RefValue

open Cert.ReferenceIdeal Cert.ReferenceIdeal.Gen Cert.ReferenceIdeal.ReadP Cert.Whole Cert.HostPart
open Idealize.ShloMosaic

variable (w : PlainWF)
variable (x0 : FVec Ideal SNxD .f32) (x1 : IVec S2xE 32) (x2 : FVec Ideal SDxD .f32) (x3 : FVec Ideal SD .f32)
  (x4 : FVec Ideal SDxD .f32) (x5 : FVec Ideal SD .f32) (x6 : FVec Ideal SDxD .f32) (x7 : FVec Ideal SD .f32)
  (x8 : FVec Ideal SDx1 .f32) (x9 : FVec Ideal HostPart.S1 .f32)

/-! ## The shared host functions, stage by stage -/

theorem selfScale1 : val_main_v46 (F := Ideal) x1 = selfScale (F := Ideal) hostRecs x1 := rfl
theorem selfScale2 : val_main_v88 (F := Ideal) x1 = selfScale (F := Ideal) hostRecs x1 := rfl
theorem selfScale3 : val_main_v131 (F := Ideal) x1 = selfScale (F := Ideal) hostRecs x1 := rfl

theorem prod1 : val_main_v16 (F := Ideal) x0 x2 = prod w x0 x2 := rfl
theorem prod2 : (val_main_v58 (F := Ideal) x0 x1 x2 x3 x4) = prod w (val_main_v57 (F := Ideal) x0 x1 x2 x3) x4 := rfl
theorem prod3 : (val_main_v101 (F := Ideal) x0 x1 x2 x3 x4 x5 x6) = prod w (val_main_v100 (F := Ideal) x0 x1 x2 x3 x4 x5) x6 := rfl

theorem agg1 : (val_main_v44 (F := Ideal) x0 x1 x2) = agg (F := Ideal) hostRecs x1 (val_main_v16 (F := Ideal) x0 x2) := rfl
theorem agg2 : (val_main_v86 (F := Ideal) x0 x1 x2 x3 x4) = agg (F := Ideal) hostRecs x1 (val_main_v58 (F := Ideal) x0 x1 x2 x3 x4) := rfl
theorem agg3 : (val_main_v129 (F := Ideal) x0 x1 x2 x3 x4 x5 x6) = agg (F := Ideal) hostRecs x1 (val_main_v101 (F := Ideal) x0 x1 x2 x3 x4 x5 x6) := rfl

/-! ## The layers -/

/-- The first layer's output. -/
theorem layer1_eq : (val_main_v57 (F := Ideal) x0 x1 x2 x3) = layer1 hostRecs w x0 x1 x2 x3 := by
  unfold val_main_v57 val_main_v54 val_main_v56 val_main_v52 val_main_v49 val_main_v48 val_main_v47 val_main_v51 val_main_v50
    val_main_v53 val_main_v55 val_main_cst_10 val_main_cst_11
  refine (comb_host Facts₀.bcast_S50000x1_S50000x128_0_1 Facts₀.bcast_S1x128_S50000x128_0_1 Facts₀.bcast_S128_S1x128_1 Facts₀.bcast_S_S50000x128
    (val_main_v44 (F := Ideal) x0 x1 x2) (val_main_v16 (F := Ideal) x0 x2) (val_main_v46 (F := Ideal) x1) x3).trans ?_
  rw [agg1, prod1 w, selfScale1]
  rfl

/-- The second layer's output, from the first's. -/
theorem layer2_eq : (val_main_v100 (F := Ideal) x0 x1 x2 x3 x4 x5) = layerR hostRecs w (val_main_v57 (F := Ideal) x0 x1 x2 x3) x1 x4 x5 := by
  unfold val_main_v100 val_main_v97 val_main_v99 val_main_v95 val_main_v94 val_main_v91 val_main_v90 val_main_v89 val_main_v93 val_main_v92
    val_main_v96 val_main_v98 val_main_cst_19 val_main_cst_20
  refine (combR_host Facts₀.bcast_S50000x1_S50000x128_0_1 Facts₀.bcast_S1x128_S50000x128_0_1 Facts₀.bcast_S128_S1x128_1 Facts₀.bcast_S_S50000x128
    (val_main_v86 (F := Ideal) x0 x1 x2 x3 x4) (val_main_v58 (F := Ideal) x0 x1 x2 x3 x4) (val_main_v88 (F := Ideal) x1) x5 (val_main_v57 (F := Ideal) x0 x1 x2 x3)).trans ?_
  rw [agg2, prod2 w, selfScale2]
  rfl

/-- The third layer's output, from the second's. -/
theorem layer3_eq : (val_main_v143 (F := Ideal) x0 x1 x2 x3 x4 x5 x6 x7) = layerR hostRecs w (val_main_v100 (F := Ideal) x0 x1 x2 x3 x4 x5) x1 x6 x7 := by
  unfold val_main_v143 val_main_v140 val_main_v142 val_main_v138 val_main_v137 val_main_v134 val_main_v133 val_main_v132 val_main_v136 val_main_v135
    val_main_v139 val_main_v141 val_main_cst_28 val_main_cst_29
  refine (combR_host Facts₀.bcast_S50000x1_S50000x128_0_1 Facts₀.bcast_S1x128_S50000x128_0_1 Facts₀.bcast_S128_S1x128_1 Facts₀.bcast_S_S50000x128
    (val_main_v129 (F := Ideal) x0 x1 x2 x3 x4 x5 x6) (val_main_v101 (F := Ideal) x0 x1 x2 x3 x4 x5 x6) (val_main_v131 (F := Ideal) x1) x7 (val_main_v100 (F := Ideal) x0 x1 x2 x3 x4 x5)).trans ?_
  rw [agg3, prod3 w, selfScale3]
  rfl

/-! ## The result -/

/-- The reference's result is the network of its arguments. -/
theorem net_eq : (val_main_v148 (F := Ideal) x0 x1 x2 x3 x4 x5 x6 x7 x8 x9) = net hostRecs w x0 x1 x2 x3 x4 x5 x6 x7 x8 x9 := by
  unfold val_main_v148 val_main_v147 val_main_v144 val_main_v146 val_main_v145
  rw [layer3_eq w, layer2_eq w, layer1_eq w]
  rfl

end Cert.ReferenceIdeal.RefValue

end
-- ==== Proof.RefRunStages.lean ====
/-
  The idealized reference program's run, stated over its stages. The reference's @main is one straight line of 181
  host operations; every weakly fair execution terminates with every buffer at the fold of the operations over the
  launch contents. The fold is followed a layer at a time: the line is cut after the first layer's output, after the
  second's and after the third's; each piece is evaluated over the contents the piece before it leaves, of which it
  reads only the layer output before it, the source and target rows, the degree scale and its own arguments; and the
  result of each piece is the stage of that name. So the result buffer ends at the last stage, `val_main_v148` of the
  arguments, and no operation writes an argument.
-/
import proofs.«105951_j5961414607307_2_alg».proof.Proof.RefOps
import proofs.«105951_j5961414607307_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-! ## The line, cut a layer at a time -/

/-- Operations 1 to 72: the degree scale and the first layer, up to its output `main_v57`. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S600000 ![] bcast_S_S600000 : (⟨S_, .i32⟩ : BufTy).Contents (Elt F) → (⟨S600000, .i32⟩ : BufTy).Contents (Elt F)),
    binary main_v3 main_v5 main_v6 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v7 (broadcastInDim S600000 ![] bcast_S_S600000 : (⟨S_, .i32⟩ : BufTy).Contents (Elt F) → (⟨S600000, .i32⟩ : BufTy).Contents (Elt F)),
    binary main_v3 main_v7 main_v8 (addi : (⟨S600000, .i32⟩ : BufTy).Contents (Elt F) → (⟨S600000, .i32⟩ : BufTy).Contents (Elt F) → (⟨S600000, .i32⟩ : BufTy).Contents (Elt F)),
    ternary main_v6 main_v8 main_v3 main_v9 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v9 main_v10 (broadcastInDim S600000x1 ![0] bcast_S600000_S600000x1_0 : (⟨S600000, .i32⟩ : BufTy).Contents (Elt F) → (⟨S600000x1, .i32⟩ : BufTy).Contents (Elt F)),
    nullary main_cst_1 (constant S_ .f32 0x3F800000#32),
    unary main_cst_1 main_v11 (broadcastInDim S600000 ![] bcast_S_S600000 : (⟨S_, .f32⟩ : BufTy).Contents (Elt F) → (⟨S600000, .f32⟩ : BufTy).Contents (Elt F)),
    ternary main_v4 main_v10 main_v11 main_v12 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    binary main_arg0 main_arg2 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_3 (constantI S_ 32 0#32),
    unary main_c_3 main_v17 (broadcastInDim S600000 ![] bcast_S_S600000 : (⟨S_, .i32⟩ : BufTy).Contents (Elt F) → (⟨S600000, .i32⟩ : BufTy).Contents (Elt F)),
    binary main_v1 main_v17 main_v18 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v19 (broadcastInDim S600000 ![] bcast_S_S600000 : (⟨S_, .i32⟩ : BufTy).Contents (Elt F) → (⟨S600000, .i32⟩ : BufTy).Contents (Elt F)),
    binary main_v1 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_v1 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v15 main_v22 main_v23 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v24 (broadcastInDim S600000 ![] bcast_S_S600000 : (⟨S_, .i32⟩ : BufTy).Contents (Elt F) → (⟨S600000, .i32⟩ : BufTy).Contents (Elt F)),
    binary main_v3 main_v24 main_v25 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v26 (broadcastInDim S600000 ![] bcast_S_S600000 : (⟨S_, .i32⟩ : BufTy).Contents (Elt F) → (⟨S600000, .i32⟩ : BufTy).Contents (Elt F)),
    binary main_v3 main_v26 main_v27 (addi : (⟨S600000, .i32⟩ : BufTy).Contents (Elt F) → (⟨S600000, .i32⟩ : BufTy).Contents (Elt F) → (⟨S600000, .i32⟩ : BufTy).Contents (Elt F)),
    ternary main_v25 main_v27 main_v3 main_v28 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v28 main_v29 (broadcastInDim S600000x1 ![0] bcast_S600000_S600000x1_0 : (⟨S600000, .i32⟩ : BufTy).Contents (Elt F) → (⟨S600000x1, .i32⟩ : BufTy).Contents (Elt F)),
    binary main_v15 main_v29 main_v30 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v23 main_v30 main_v31 (mulf : (⟨S600000, .f32⟩ : BufTy).Contents (Elt F) → (⟨S600000, .f32⟩ : BufTy).Contents (Elt F) → (⟨S600000, .f32⟩ : BufTy).Contents (Elt F)),
    unary main_v31 main_v32 (broadcastInDim S600000x1 ![0] bcast_S600000_S600000x1_0 : (⟨S600000, .f32⟩ : BufTy).Contents (Elt F) → (⟨S600000x1, .f32⟩ : BufTy).Contents (Elt F)),
    nullary main_c_7 (constantI S_ 32 0#32),
    unary main_c_7 main_v33 (broadcastInDim S600000 ![] bcast_S_S600000 : (⟨S_, .i32⟩ : BufTy).Contents (Elt F) → (⟨S600000, .i32⟩ : BufTy).Contents (Elt F)),
    binary main_v1 main_v33 main_v34 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v35 (broadcastInDim S600000 ![] bcast_S_S600000 : (⟨S_, .i32⟩ : BufTy).Contents (Elt F) → (⟨S600000, .i32⟩ : BufTy).Contents (Elt F)),
    binary main_v1 main_v35 main_v36 (addi : (⟨S600000, .i32⟩ : BufTy).Contents (Elt F) → (⟨S600000, .i32⟩ : BufTy).Contents (Elt F) → (⟨S600000, .i32⟩ : BufTy).Contents (Elt F)),
    ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v37 main_v38 (broadcastInDim S600000x1 ![0] bcast_S600000_S600000x1_0 : (⟨S600000, .i32⟩ : BufTy).Contents (Elt F) → (⟨S600000x1, .i32⟩ : BufTy).Contents (Elt F)),
    binary main_v16 main_v38 main_v39 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v32 main_v40 (broadcastInDim S600000x128 ![0, 1] bcast_S600000x1_S600000x128_0_1 : (⟨S600000x1, .f32⟩ : BufTy).Contents (Elt F) → (⟨S600000x128, .f32⟩ : BufTy).Contents (Elt F)),
    binary main_v39 main_v40 main_v41 (mulf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v15 main_v15 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v16 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_arg3 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v53 (broadcastInDim S50000x128 ![] bcast_S_S50000x128 : (⟨S_, .f32⟩ : BufTy).Contents (Elt F) → (⟨S50000x128, .f32⟩ : BufTy).Contents (Elt F)),
    binary main_v52 main_v53 main_v54 (cmpf .ogt : (⟨S50000x128, .f32⟩ : BufTy).Contents (Elt F) → (⟨S50000x128, .f32⟩ : BufTy).Contents (Elt F) → (⟨S50000x128, .i1⟩ : BufTy).Contents (Elt F)),
    nullary main_cst_11 (constant S_ .f32 0x3E4CCCCD#32),
    unary main_cst_11 main_v55 (broadcastInDim S50000x128 ![] bcast_S_S50000x128 : (⟨S_, .f32⟩ : BufTy).Contents (Elt F) → (⟨S50000x128, .f32⟩ : BufTy).Contents (Elt F)),
    binary main_v55 main_v52 main_v56 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v54) (TRef.of (T := ⟨S50000x128, .f32⟩) main_v52) (TRef.of (T := ⟨S50000x128, .f32⟩) main_v56) (TRef.of (T := ⟨S50000x128, .f32⟩) main_v57) select ]

/-- Operations 73 to 124: the second layer, up to its output `main_v100`. -/
abbrev opsB : List (HloOp τ sig (Elt F)) :=
  [ binary main_v57 main_arg4 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v59 (broadcastInDim S600000 ![] bcast_S_S600000 : (⟨S_, .i32⟩ : BufTy).Contents (Elt F) → (⟨S600000, .i32⟩ : BufTy).Contents (Elt F)),
    binary main_v1 main_v59 main_v60 (cmpi .slt : (⟨S600000, .i32⟩ : BufTy).Contents (Elt F) → (⟨S600000, .i32⟩ : BufTy).Contents (Elt F) → (⟨S600000, .i1⟩ : BufTy).Contents (Elt F)),
    nullary main_c_13 (constantI S_ 32 50000#32),
    unary main_c_13 main_v61 (broadcastInDim S600000 ![] bcast_S_S600000 : (⟨S_, .i32⟩ : BufTy).Contents (Elt F) → (⟨S600000, .i32⟩ : BufTy).Contents (Elt F)),
    binary main_v1 main_v61 main_v62 (addi : (⟨S600000, .i32⟩ : BufTy).Contents (Elt F) → (⟨S600000, .i32⟩ : BufTy).Contents (Elt F) → (⟨S600000, .i32⟩ : BufTy).Contents (Elt F)),
    ternary main_v60 main_v62 main_v1 main_v63 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v63 main_v64 (broadcastInDim S600000x1 ![0] bcast_S600000_S600000x1_0 : (⟨S600000, .i32⟩ : BufTy).Contents (Elt F) → (⟨S600000x1, .i32⟩ : BufTy).Contents (Elt F)),
    binary main_v15 main_v64 main_v65 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_14 (constantI S_ 32 0#32),
    unary main_c_14 main_v66 (broadcastInDim S600000 ![] bcast_S_S600000 : (⟨S_, .i32⟩ : BufTy).Contents (Elt F) → (⟨S600000, .i32⟩ : BufTy).Contents (Elt F)),
    binary main_v3 main_v66 main_v67 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v68 (broadcastInDim S600000 ![] bcast_S_S600000 : (⟨S_, .i32⟩ : BufTy).Contents (Elt F) → (⟨S600000, .i32⟩ : BufTy).Contents (Elt F)),
    binary main_v3 main_v68 main_v69 (addi : (⟨S600000, .i32⟩ : BufTy).Contents (Elt F) → (⟨S600000, .i32⟩ : BufTy).Contents (Elt F) → (⟨S600000, .i32⟩ : BufTy).Contents (Elt F)),
    ternary main_v67 main_v69 main_v3 main_v70 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v70 main_v71 (broadcastInDim S600000x1 ![0] bcast_S600000_S600000x1_0 : (⟨S600000, .i32⟩ : BufTy).Contents (Elt F) → (⟨S600000x1, .i32⟩ : BufTy).Contents (Elt F)),
    binary main_v15 main_v71 main_v72 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v65 main_v72 main_v73 (mulf : (⟨S600000, .f32⟩ : BufTy).Contents (Elt F) → (⟨S600000, .f32⟩ : BufTy).Contents (Elt F) → (⟨S600000, .f32⟩ : BufTy).Contents (Elt F)),
    unary main_v73 main_v74 (broadcastInDim S600000x1 ![0] bcast_S600000_S600000x1_0 : (⟨S600000, .f32⟩ : BufTy).Contents (Elt F) → (⟨S600000x1, .f32⟩ : BufTy).Contents (Elt F)),
    nullary main_c_16 (constantI S_ 32 0#32),
    unary main_c_16 main_v75 (broadcastInDim S600000 ![] bcast_S_S600000 : (⟨S_, .i32⟩ : BufTy).Contents (Elt F) → (⟨S600000, .i32⟩ : BufTy).Contents (Elt F)),
    binary main_v1 main_v75 main_v76 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v77 (broadcastInDim S600000 ![] bcast_S_S600000 : (⟨S_, .i32⟩ : BufTy).Contents (Elt F) → (⟨S600000, .i32⟩ : BufTy).Contents (Elt F)),
    binary main_v1 main_v77 main_v78 (addi : (⟨S600000, .i32⟩ : BufTy).Contents (Elt F) → (⟨S600000, .i32⟩ : BufTy).Contents (Elt F) → (⟨S600000, .i32⟩ : BufTy).Contents (Elt F)),
    ternary main_v76 main_v78 main_v1 main_v79 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v79 main_v80 (broadcastInDim S600000x1 ![0] bcast_S600000_S600000x1_0 : (⟨S600000, .i32⟩ : BufTy).Contents (Elt F) → (⟨S600000x1, .i32⟩ : BufTy).Contents (Elt F)),
    binary main_v58 main_v80 main_v81 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v74 main_v82 (broadcastInDim S600000x128 ![0, 1] bcast_S600000x1_S600000x128_0_1 : (⟨S600000x1, .f32⟩ : BufTy).Contents (Elt F) → (⟨S600000x128, .f32⟩ : BufTy).Contents (Elt F)),
    binary main_v81 main_v82 main_v83 (mulf : (⟨S600000x128, .f32⟩ : BufTy).Contents (Elt F) → (⟨S600000x128, .f32⟩ : BufTy).Contents (Elt F) → (⟨S600000x128, .f32⟩ : BufTy).Contents (Elt F)),
    nullary main_cst_18 (constant S_ .f32 0x00000000#32),
    unary main_cst_18 main_v84 (broadcastInDim S50000x128 ![] bcast_S_S50000x128 : (⟨S_, .f32⟩ : BufTy).Contents (Elt F) → (⟨S50000x128, .f32⟩ : BufTy).Contents (Elt F)),
    unary main_v3 main_v85 (broadcastInDim S600000x1 ![0] bcast_S600000_S600000x1_0 : (⟨S600000, .i32⟩ : BufTy).Contents (Elt F) → (⟨S600000x1, .i32⟩ : BufTy).Contents (Elt F)),
    ternary main_v84 main_v85 main_v83 main_v86 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v15 main_v15 main_v87 (mulf : (⟨S50000, .f32⟩ : BufTy).Contents (Elt F) → (⟨S50000, .f32⟩ : BufTy).Contents (Elt F) → (⟨S50000, .f32⟩ : BufTy).Contents (Elt F)),
    unary main_v87 main_v88 (broadcastInDim S50000x1 ![0] bcast_S50000_S50000x1_0 : (⟨S50000, .f32⟩ : BufTy).Contents (Elt F) → (⟨S50000x1, .f32⟩ : BufTy).Contents (Elt F)),
    unary main_v88 main_v89 (broadcastInDim S50000x128 ![0, 1] bcast_S50000x1_S50000x128_0_1 : (⟨S50000x1, .f32⟩ : BufTy).Contents (Elt F) → (⟨S50000x128, .f32⟩ : BufTy).Contents (Elt F)),
    binary main_v58 main_v89 main_v90 (mulf : (⟨S50000x128, .f32⟩ : BufTy).Contents (Elt F) → (⟨S50000x128, .f32⟩ : BufTy).Contents (Elt F) → (⟨S50000x128, .f32⟩ : BufTy).Contents (Elt F)),
    binary main_v86 main_v90 main_v91 (addf : (⟨S50000x128, .f32⟩ : BufTy).Contents (Elt F) → (⟨S50000x128, .f32⟩ : BufTy).Contents (Elt F) → (⟨S50000x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    binary main_v57 main_v94 main_v95 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    unary main_cst_19 main_v96 (broadcastInDim S50000x128 ![] bcast_S_S50000x128 : (⟨S_, .f32⟩ : BufTy).Contents (Elt F) → (⟨S50000x128, .f32⟩ : BufTy).Contents (Elt F)),
    binary main_v95 main_v96 main_v97 (cmpf .ogt : (⟨S50000x128, .f32⟩ : BufTy).Contents (Elt F) → (⟨S50000x128, .f32⟩ : BufTy).Contents (Elt F) → (⟨S50000x128, .i1⟩ : BufTy).Contents (Elt F)),
    nullary main_cst_20 (constant S_ .f32 0x3E4CCCCD#32),
    unary main_cst_20 main_v98 (broadcastInDim S50000x128 ![] bcast_S_S50000x128 : (⟨S_, .f32⟩ : BufTy).Contents (Elt F) → (⟨S50000x128, .f32⟩ : BufTy).Contents (Elt F)),
    binary main_v98 main_v95 main_v99 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v97) (TRef.of (T := ⟨S50000x128, .f32⟩) main_v95) (TRef.of (T := ⟨S50000x128, .f32⟩) main_v99) (TRef.of (T := ⟨S50000x128, .f32⟩) main_v100) select ]

/-- Operations 125 to 176: the third layer, up to its output `main_v143`. -/
abbrev opsC : List (HloOp τ sig (Elt F)) :=
  [ binary main_v100 main_arg6 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_21 (constantI S_ 32 0#32),
    unary main_c_21 main_v102 (broadcastInDim S600000 ![] bcast_S_S600000 : (⟨S_, .i32⟩ : BufTy).Contents (Elt F) → (⟨S600000, .i32⟩ : BufTy).Contents (Elt F)),
    binary main_v1 main_v102 main_v103 (cmpi .slt : (⟨S600000, .i32⟩ : BufTy).Contents (Elt F) → (⟨S600000, .i32⟩ : BufTy).Contents (Elt F) → (⟨S600000, .i1⟩ : BufTy).Contents (Elt F)),
    nullary main_c_22 (constantI S_ 32 50000#32),
    unary main_c_22 main_v104 (broadcastInDim S600000 ![] bcast_S_S600000 : (⟨S_, .i32⟩ : BufTy).Contents (Elt F) → (⟨S600000, .i32⟩ : BufTy).Contents (Elt F)),
    binary main_v1 main_v104 main_v105 (addi : (⟨S600000, .i32⟩ : BufTy).Contents (Elt F) → (⟨S600000, .i32⟩ : BufTy).Contents (Elt F) → (⟨S600000, .i32⟩ : BufTy).Contents (Elt F)),
    ternary main_v103 main_v105 main_v1 main_v106 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v106 main_v107 (broadcastInDim S600000x1 ![0] bcast_S600000_S600000x1_0 : (⟨S600000, .i32⟩ : BufTy).Contents (Elt F) → (⟨S600000x1, .i32⟩ : BufTy).Contents (Elt F)),
    binary main_v15 main_v107 main_v108 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_23 (constantI S_ 32 0#32),
    unary main_c_23 main_v109 (broadcastInDim S600000 ![] bcast_S_S600000 : (⟨S_, .i32⟩ : BufTy).Contents (Elt F) → (⟨S600000, .i32⟩ : BufTy).Contents (Elt F)),
    binary main_v3 main_v109 main_v110 (cmpi .slt : (⟨S600000, .i32⟩ : BufTy).Contents (Elt F) → (⟨S600000, .i32⟩ : BufTy).Contents (Elt F) → (⟨S600000, .i1⟩ : BufTy).Contents (Elt F)),
    nullary main_c_24 (constantI S_ 32 50000#32),
    unary main_c_24 main_v111 (broadcastInDim S600000 ![] bcast_S_S600000 : (⟨S_, .i32⟩ : BufTy).Contents (Elt F) → (⟨S600000, .i32⟩ : BufTy).Contents (Elt F)),
    binary main_v3 main_v111 main_v112 (addi : (⟨S600000, .i32⟩ : BufTy).Contents (Elt F) → (⟨S600000, .i32⟩ : BufTy).Contents (Elt F) → (⟨S600000, .i32⟩ : BufTy).Contents (Elt F)),
    ternary main_v110 main_v112 main_v3 main_v113 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v113 main_v114 (broadcastInDim S600000x1 ![0] bcast_S600000_S600000x1_0 : (⟨S600000, .i32⟩ : BufTy).Contents (Elt F) → (⟨S600000x1, .i32⟩ : BufTy).Contents (Elt F)),
    binary main_v15 main_v114 main_v115 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v108 main_v115 main_v116 (mulf : (⟨S600000, .f32⟩ : BufTy).Contents (Elt F) → (⟨S600000, .f32⟩ : BufTy).Contents (Elt F) → (⟨S600000, .f32⟩ : BufTy).Contents (Elt F)),
    unary main_v116 main_v117 (broadcastInDim S600000x1 ![0] bcast_S600000_S600000x1_0 : (⟨S600000, .f32⟩ : BufTy).Contents (Elt F) → (⟨S600000x1, .f32⟩ : BufTy).Contents (Elt F)),
    nullary main_c_25 (constantI S_ 32 0#32),
    unary main_c_25 main_v118 (broadcastInDim S600000 ![] bcast_S_S600000 : (⟨S_, .i32⟩ : BufTy).Contents (Elt F) → (⟨S600000, .i32⟩ : BufTy).Contents (Elt F)),
    binary main_v1 main_v118 main_v119 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v120 (broadcastInDim S600000 ![] bcast_S_S600000 : (⟨S_, .i32⟩ : BufTy).Contents (Elt F) → (⟨S600000, .i32⟩ : BufTy).Contents (Elt F)),
    binary main_v1 main_v120 main_v121 (addi : (⟨S600000, .i32⟩ : BufTy).Contents (Elt F) → (⟨S600000, .i32⟩ : BufTy).Contents (Elt F) → (⟨S600000, .i32⟩ : BufTy).Contents (Elt F)),
    ternary main_v119 main_v121 main_v1 main_v122 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v122 main_v123 (broadcastInDim S600000x1 ![0] bcast_S600000_S600000x1_0 : (⟨S600000, .i32⟩ : BufTy).Contents (Elt F) → (⟨S600000x1, .i32⟩ : BufTy).Contents (Elt F)),
    binary main_v101 main_v123 main_v124 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v117 main_v125 (broadcastInDim S600000x128 ![0, 1] bcast_S600000x1_S600000x128_0_1 : (⟨S600000x1, .f32⟩ : BufTy).Contents (Elt F) → (⟨S600000x128, .f32⟩ : BufTy).Contents (Elt F)),
    binary main_v124 main_v125 main_v126 (mulf : (⟨S600000x128, .f32⟩ : BufTy).Contents (Elt F) → (⟨S600000x128, .f32⟩ : BufTy).Contents (Elt F) → (⟨S600000x128, .f32⟩ : BufTy).Contents (Elt F)),
    nullary main_cst_27 (constant S_ .f32 0x00000000#32),
    unary main_cst_27 main_v127 (broadcastInDim S50000x128 ![] bcast_S_S50000x128 : (⟨S_, .f32⟩ : BufTy).Contents (Elt F) → (⟨S50000x128, .f32⟩ : BufTy).Contents (Elt F)),
    unary main_v3 main_v128 (broadcastInDim S600000x1 ![0] bcast_S600000_S600000x1_0 : (⟨S600000, .i32⟩ : BufTy).Contents (Elt F) → (⟨S600000x1, .i32⟩ : BufTy).Contents (Elt F)),
    ternary main_v127 main_v128 main_v126 main_v129 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v15 main_v15 main_v130 (mulf : (⟨S50000, .f32⟩ : BufTy).Contents (Elt F) → (⟨S50000, .f32⟩ : BufTy).Contents (Elt F) → (⟨S50000, .f32⟩ : BufTy).Contents (Elt F)),
    unary main_v130 main_v131 (broadcastInDim S50000x1 ![0] bcast_S50000_S50000x1_0 : (⟨S50000, .f32⟩ : BufTy).Contents (Elt F) → (⟨S50000x1, .f32⟩ : BufTy).Contents (Elt F)),
    unary main_v131 main_v132 (broadcastInDim S50000x128 ![0, 1] bcast_S50000x1_S50000x128_0_1 : (⟨S50000x1, .f32⟩ : BufTy).Contents (Elt F) → (⟨S50000x128, .f32⟩ : BufTy).Contents (Elt F)),
    binary main_v101 main_v132 main_v133 (mulf : (⟨S50000x128, .f32⟩ : BufTy).Contents (Elt F) → (⟨S50000x128, .f32⟩ : BufTy).Contents (Elt F) → (⟨S50000x128, .f32⟩ : BufTy).Contents (Elt F)),
    binary main_v129 main_v133 main_v134 (addf : (⟨S50000x128, .f32⟩ : BufTy).Contents (Elt F) → (⟨S50000x128, .f32⟩ : BufTy).Contents (Elt F) → (⟨S50000x128, .f32⟩ : BufTy).Contents (Elt F)),
    unary main_arg7 main_v135 (broadcastInDim S1x128 ![1] bcast_S128_S1x128_1 : (⟨S128, .f32⟩ : BufTy).Contents (Elt F) → (⟨S1x128, .f32⟩ : BufTy).Contents (Elt F)),
    unary main_v135 main_v136 (broadcastInDim S50000x128 ![0, 1] bcast_S1x128_S50000x128_0_1 : (⟨S1x128, .f32⟩ : BufTy).Contents (Elt F) → (⟨S50000x128, .f32⟩ : BufTy).Contents (Elt F)),
    binary main_v134 main_v136 main_v137 (addf : (⟨S50000x128, .f32⟩ : BufTy).Contents (Elt F) → (⟨S50000x128, .f32⟩ : BufTy).Contents (Elt F) → (⟨S50000x128, .f32⟩ : BufTy).Contents (Elt F)),
    binary main_v100 main_v137 main_v138 (addf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    unary main_cst_28 main_v139 (broadcastInDim S50000x128 ![] bcast_S_S50000x128 : (⟨S_, .f32⟩ : BufTy).Contents (Elt F) → (⟨S50000x128, .f32⟩ : BufTy).Contents (Elt F)),
    binary main_v138 main_v139 main_v140 (cmpf .ogt : (⟨S50000x128, .f32⟩ : BufTy).Contents (Elt F) → (⟨S50000x128, .f32⟩ : BufTy).Contents (Elt F) → (⟨S50000x128, .i1⟩ : BufTy).Contents (Elt F)),
    nullary main_cst_29 (constant S_ .f32 0x3E4CCCCD#32),
    unary main_cst_29 main_v141 (broadcastInDim S50000x128 ![] bcast_S_S50000x128 : (⟨S_, .f32⟩ : BufTy).Contents (Elt F) → (⟨S50000x128, .f32⟩ : BufTy).Contents (Elt F)),
    binary main_v141 main_v138 main_v142 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v140) (TRef.of (T := ⟨S50000x128, .f32⟩) main_v138) (TRef.of (T := ⟨S50000x128, .f32⟩) main_v142) (TRef.of (T := ⟨S50000x128, .f32⟩) main_v143) select ]

/-- Operations 177 to 181: the projection. -/
abbrev opsD : List (HloOp τ sig (Elt F)) :=
  [ binary main_v143 main_arg8 main_v144 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg9 main_v145 (broadcastInDim S1x1 ![1] bcast_S1_S1x1_1 : (⟨S1, .f32⟩ : BufTy).Contents (Elt F) → (⟨S1x1, .f32⟩ : BufTy).Contents (Elt F)),
    unary main_v145 main_v146 (broadcastInDim S50000x1 ![0, 1] bcast_S1x1_S50000x1_0_1 : (⟨S1x1, .f32⟩ : BufTy).Contents (Elt F) → (⟨S50000x1, .f32⟩ : BufTy).Contents (Elt F)),
    binary main_v144 main_v146 main_v147 (addf : (⟨S50000x1, .f32⟩ : BufTy).Contents (Elt F) → (⟨S50000x1, .f32⟩ : BufTy).Contents (Elt F) → (⟨S50000x1, .f32⟩ : BufTy).Contents (Elt F)),
    reshape main_v147 main_v148 rfl shapeCasts_S50000x1_S50000 ]

/-- The four pieces, in order, are the whole line. -/
theorem ops_split : (ops : List (HloOp τ sig (Elt F))) = opsA ++ (opsB ++ (opsC ++ opsD)) := rfl

/-- The fold over a line cut in two is the fold over the second piece of the fold over the first. -/
theorem after_append (a b : List (HloOp τ sig (Elt F))) (V : Valuation τ sig (Elt F)) : after (a ++ b) V = after b (after a V) := by
  induction a generalizing V with
  | nil => rfl
  | cons op a ih => exact ih _

/-! ## What every piece keeps -/

variable (x0 : (⟨S50000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F))

/-- What the later pieces read of the earlier ones: the source and target rows, the degree scale, and the arguments. -/
structure Keeps (W : Valuation τ sig (Elt F)) : Prop where
  s : W (Proc.devRef .tc main_v1) = val_main_v1 (F := F) x1
  t : W (Proc.devRef .tc main_v3) = val_main_v3 (F := F) x1
  d : W (Proc.devRef .tc main_v15) = val_main_v15 (F := F) x1
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9

set_option maxHeartbeats 8000000 in
/-- After the first piece, from contents with the arguments at `x0 … x9`. -/
theorem keepsA (W : Valuation τ sig (Elt F)) (h1 : W (Proc.devRef .tc main_arg1) = x1)
    (h4 : W (Proc.devRef .tc main_arg4) = x4)
    (h5 : W (Proc.devRef .tc main_arg5) = x5)
    (h6 : W (Proc.devRef .tc main_arg6) = x6)
    (h7 : W (Proc.devRef .tc main_arg7) = x7)
    (h8 : W (Proc.devRef .tc main_arg8) = x8)
    (h9 : W (Proc.devRef .tc main_arg9) = x9) :
    Keeps x1 x4 x5 x6 x7 x8 x9 (after opsA W) where
  s := by
    dsimp only [opsA]
    after_results_simp
    rw [h1]; first | done | rfl
  t := by
    dsimp only [opsA]
    after_results_simp
    rw [h1]; first | done | rfl
  d := by
    dsimp only [opsA]
    after_results_simp
    rw [h1]; first | done | rfl
  a4 := by
    dsimp only [opsA]
    after_results_simp
    exact h4
  a5 := by
    dsimp only [opsA]
    after_results_simp
    exact h5
  a6 := by
    dsimp only [opsA]
    after_results_simp
    exact h6
  a7 := by
    dsimp only [opsA]
    after_results_simp
    exact h7
  a8 := by
    dsimp only [opsA]
    after_results_simp
    exact h8
  a9 := by
    dsimp only [opsA]
    after_results_simp
    exact h9

set_option maxHeartbeats 8000000 in
/-- The second piece writes none of the kept buffers. -/
theorem keepsB (W : Valuation τ sig (Elt F)) (h : Keeps x1 x4 x5 x6 x7 x8 x9 W) : Keeps x1 x4 x5 x6 x7 x8 x9 (after opsB W) where
  s := by
    dsimp only [opsB]
    after_results_simp
    exact h.s
  t := by
    dsimp only [opsB]
    after_results_simp
    exact h.t
  d := by
    dsimp only [opsB]
    after_results_simp
    exact h.d
  a4 := by
    dsimp only [opsB]
    after_results_simp
    exact h.a4
  a5 := by
    dsimp only [opsB]
    after_results_simp
    exact h.a5
  a6 := by
    dsimp only [opsB]
    after_results_simp
    exact h.a6
  a7 := by
    dsimp only [opsB]
    after_results_simp
    exact h.a7
  a8 := by
    dsimp only [opsB]
    after_results_simp
    exact h.a8
  a9 := by
    dsimp only [opsB]
    after_results_simp
    exact h.a9

set_option maxHeartbeats 8000000 in
/-- The third piece writes none of the kept buffers. -/
theorem keepsC (W : Valuation τ sig (Elt F)) (h : Keeps x1 x4 x5 x6 x7 x8 x9 W) : Keeps x1 x4 x5 x6 x7 x8 x9 (after opsC W) where
  s := by
    dsimp only [opsC]
    after_results_simp
    exact h.s
  t := by
    dsimp only [opsC]
    after_results_simp
    exact h.t
  d := by
    dsimp only [opsC]
    after_results_simp
    exact h.d
  a4 := by
    dsimp only [opsC]
    after_results_simp
    exact h.a4
  a5 := by
    dsimp only [opsC]
    after_results_simp
    exact h.a5
  a6 := by
    dsimp only [opsC]
    after_results_simp
    exact h.a6
  a7 := by
    dsimp only [opsC]
    after_results_simp
    exact h.a7
  a8 := by
    dsimp only [opsC]
    after_results_simp
    exact h.a8
  a9 := by
    dsimp only [opsC]
    after_results_simp
    exact h.a9

/-! ## The layer outputs and the result -/

set_option maxHeartbeats 8000000 in
/-- The first piece leaves the first layer's output at its stage. -/
theorem outA (W : Valuation τ sig (Elt F)) (h0 : W (Proc.devRef .tc main_arg0) = x0) (h1 : W (Proc.devRef .tc main_arg1) = x1)
    (h2 : W (Proc.devRef .tc main_arg2) = x2) (h3 : W (Proc.devRef .tc main_arg3) = x3) :
    after opsA W (Proc.devRef .tc main_v57) = val_main_v57 (F := F) x0 x1 x2 x3 := by
  dsimp only [opsA]
  after_results_simp
  rw [h0, h1, h2, h3]
  rfl

set_option maxHeartbeats 8000000 in
/-- The second piece leaves the second layer's output at its stage. -/
theorem outB (W : Valuation τ sig (Elt F)) (h : Keeps x1 x4 x5 x6 x7 x8 x9 W)
    (hp : W (Proc.devRef .tc main_v57) = val_main_v57 (F := F) x0 x1 x2 x3) :
    after opsB W (Proc.devRef .tc main_v100) = val_main_v100 (F := F) x0 x1 x2 x3 x4 x5 := by
  dsimp only [opsB]
  after_results_simp
  rw [h.s, h.t, h.d, h.a4, h.a5, hp]
  rfl

set_option maxHeartbeats 8000000 in
/-- The third piece leaves the third layer's output at its stage. -/
theorem outC (W : Valuation τ sig (Elt F)) (h : Keeps x1 x4 x5 x6 x7 x8 x9 W)
    (hp : W (Proc.devRef .tc main_v100) = val_main_v100 (F := F) x0 x1 x2 x3 x4 x5) :
    after opsC W (Proc.devRef .tc main_v143) = val_main_v143 (F := F) x0 x1 x2 x3 x4 x5 x6 x7 := by
  dsimp only [opsC]
  after_results_simp
  rw [h.s, h.t, h.d, h.a6, h.a7, hp]
  rfl

/-- The last piece leaves the result at its stage. -/
theorem outD (W : Valuation τ sig (Elt F)) (h : Keeps x1 x4 x5 x6 x7 x8 x9 W)
    (hp : W (Proc.devRef .tc main_v143) = val_main_v143 (F := F) x0 x1 x2 x3 x4 x5 x6 x7) :
    after opsD W (Proc.devRef .tc main_v148) = val_main_v148 (F := F) x0 x1 x2 x3 x4 x5 x6 x7 x8 x9 := by
  dsimp only [opsD]
  after_results_simp
  rw [h.a8, h.a9, hp]
  rfl

/-- The whole line leaves the result buffer at the last stage of the launch contents' arguments. -/
theorem result (W : Valuation τ sig (Elt F)) :
    after ops W (Proc.devRef .tc main_v148) = val_main_v148 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [ops_split, after_append, after_append, after_append]
  have kA := keepsA (W (Proc.devRef .tc main_arg1)) (W (Proc.devRef .tc main_arg4)) (W (Proc.devRef .tc main_arg5)) (W (Proc.devRef .tc main_arg6)) (W (Proc.devRef .tc main_arg7)) (W (Proc.devRef .tc main_arg8)) (W (Proc.devRef .tc main_arg9)) W rfl rfl rfl rfl rfl rfl rfl
  have kB := keepsB _ _ _ _ _ _ _ _ kA
  have kC := keepsC _ _ _ _ _ _ _ _ kB
  exact outD _ _ _ _ _ _ _ _ _ _ _ kC (outC _ _ _ _ _ _ _ _ _ _ _ kB (outB _ _ _ _ _ _ _ _ _ _ _ kA (outA _ _ _ _ W rfl rfl rfl rfl)))

/-! ## The run -/

set_option maxHeartbeats 8000000 in
/-- On every device, from any memory with zero counters: every weakly fair execution of the reference's @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148) = val_main_v148 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v148).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Stages

end
-- ==== Proof.lean ====
/-
  A three-layer graph convolution network on 50000 nodes with 128 channels and 600000 edges, then a projection to one
  channel: the kernel program computes each layer's linear part (the node features times a 128 by 128 weight matrix)
  and each layer's combination (the leaky rectifier of neighbourhood sum + self loop + bias, from the second layer on
  plus the layer's input) in Pallas kernels, ten row blocks of 5000 nodes each, and everything else — the degrees and
  their reciprocal square roots, the gathers and scatter-adds of the neighbourhood sums, the projection — by the same
  host operations as the reference; the reference computes all of it on the host.
  At the ideal values (floats extended reals, every operation exact, the kernel's rounding to bf16 before the matrix
  products the identity) both programs compute the same function `net` of the arguments (Proof/Whole.lean):
  a row block of a kernel's product is the matching rows of the host's product (both are the sum over the 128
  channels of left entry times right entry); a block of a kernel's combination depends on its own rows only, and the
  host's whole-array spelling of it is the same entry-by-entry formula, up to the bracketing of one sum — the
  reference adds the layer's input to the bracketed sum `(A + H·D) + b`, the kernel sums from the left — and addition
  of extended reals is associative. No law that fails at an infinity is used, so the finiteness of the inputs is not.
  The three frames: the two kernel programs' are generated; the reference's is its run with the result dropped.
  Nothing is rewritten by the ideal pass, so `preserves` is trivial.
-/
import proofs.«105951_j5961414607307_2_alg».proof.Defs
import proofs.«105951_j5961414607307_2_alg».proof.Proof.Gen.Kernel
import proofs.«105951_j5961414607307_2_alg».proof.Proof.Gen.Kernel.Skeleton
import proofs.«105951_j5961414607307_2_alg».proof.Proof.Gen.Kernel.Launch
import proofs.«105951_j5961414607307_2_alg».proof.Proof.Gen.Kernel.Points
import proofs.«105951_j5961414607307_2_alg».proof.Proof.Gen.Kernel.Frame
import proofs.«105951_j5961414607307_2_alg».proof.Proof.Gen.KernelIdeal
import proofs.«105951_j5961414607307_2_alg».proof.Proof.Gen.KernelIdeal.Skeleton
import proofs.«105951_j5961414607307_2_alg».proof.Proof.Gen.KernelIdeal.Launch
import proofs.«105951_j5961414607307_2_alg».proof.Proof.Gen.KernelIdeal.Points
import proofs.«105951_j5961414607307_2_alg».proof.Proof.Gen.KernelIdeal.Frame
import proofs.«105951_j5961414607307_2_alg».proof.Proof.Gen.ReferenceIdeal
import proofs.«105951_j5961414607307_2_alg».proof.Proof.Gen.Pre_finite_inputs
import proofs.«105951_j5961414607307_2_alg».proof.Proof.KRun
import proofs.«105951_j5961414607307_2_alg».proof.Proof.KVal
import proofs.«105951_j5961414607307_2_alg».proof.Proof.RVal
import proofs.«105951_j5961414607307_2_alg».proof.Proof.RefRunStages
import Idealize.ShloMosaic.Adequacy
import Idealize.ShloMosaic.Init

noncomputable section

namespace Cert.Proof

open Idealize.ShloMosaic Idealize.SL.Sem

/-- The plain dimension numbers of a layer's product are well formed: the reference program's own side condition. -/
theorem plainWF : Cert.Whole.PlainWF :=
  Cert.ReferenceIdeal.Facts₀.dot_S50000x128_S128x128_S50000x128_1_0_0_1_n_n_wf

/-- The two programs state the same records for the host operations they share. -/
theorem recs_eq : Cert.KernelIdeal.hostRecs = Cert.ReferenceIdeal.hostRecs := rfl

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- From memories agreeing on the arguments both programs end with the result buffer at `net` of the arguments. -/
theorem algebraic : Cert.algebraic_KernelIdeal_ReferenceIdeal := by
  intro m ρ m' ρ' _ hagree
  refine ⟨fun c => Cert.Whole.net Cert.KernelIdeal.hostRecs plainWF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.W11_v83 m ρ c plainWF), (h c).2⟩)
      (Cert.KernelIdeal.Named.run (F := Ideal) m ρ)
  · refine (θ_run Cert.ReferenceIdeal.defs _ _).mono (fun r h c => ⟨(h c).1.trans ?_, (h c).2⟩)
      (Cert.ReferenceIdeal.Stages.run (F := Ideal) m' ρ')
    obtain ⟨e0, e1, e2, e3, e4, e5, e6, e7, e8, e9⟩ := hagree c
    rw [Cert.ReferenceIdeal.RefValue.net_eq plainWF, e0, e1, e2, e3, e4, e5, e6, e7, e8, e9,
      ← recs_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
